-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x1024, .bf16⟩
  | .hbm, ⟨5, _⟩ => ⟨S3072x1024, .bf16⟩
  | .hbm, ⟨6, _⟩ => ⟨S1024x1024, .bf16⟩
  | .hbm, ⟨7, _⟩ => ⟨S8192x1024, .bf16⟩
  | .hbm, ⟨8, _⟩ => ⟨S8192x3072, .bf16⟩
  | .hbm, ⟨9, _⟩ => ⟨S4x2048x3072, .bf16⟩
  | .hbm, ⟨10, _⟩ => ⟨S4x2048x1024, .bf16⟩
  | .hbm, ⟨11, _⟩ => ⟨S8192x1024, .bf16⟩
  | .hbm, ⟨12, _⟩ => ⟨S1x1024, .f32⟩
  | .hbm, ⟨13, _⟩ => ⟨S8192x1024, .f32⟩
  | .hbm, ⟨14, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x512x128, .bf16⟩
  | .local _ .vmem, ⟨12, _⟩ => ⟨S1x512x128, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S4x2048x1x16x64 : Shape := ⟨5, ![4, 2048, 1, 16, 64]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S4x2048x1x16x64, .f32⟩
  | .hbm, ⟨7, _⟩ => ⟨S4x2048x16x64, .f32⟩
  | .hbm, ⟨8, _⟩ => ⟨S4x16x2048x64, .f32⟩
  | .hbm, ⟨9, _⟩ => ⟨S4x2048x1x16x64, .f32⟩
  | .hbm, ⟨10, _⟩ => ⟨S4x2048x16x64, .f32⟩
  | .hbm, ⟨11, _⟩ => ⟨S4x16x2048x64, .f32⟩
  | .hbm, ⟨12, _⟩ => ⟨S4x2048x1x16x64, .f32⟩
  | .hbm, ⟨13, _⟩ => ⟨S4x2048x16x64, .f32⟩
  | .hbm, ⟨14, _⟩ => ⟨S4x16x2048x64, .f32⟩
  | .hbm, ⟨15, _⟩ => ⟨S4x16x2048x2048, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  slices_S4x2048x3x16x64_S4x2048x1x16x64_0_0_0_0_0 : S4x2048x3x16x64.Slices ![0, 0, 0, 0, 0] S4x2048x1x16x64
  shapeCasts_S4x2048x1x16x64_S4x2048x16x64 : S4x2048x1x16x64.ShapeCasts S4x2048x16x64
  transposes_S4x2048x16x64_S4x16x2048x64_0_2_1_3 : S4x2048x16x64.Transposes [0, 2, 1, 3] S4x16x2048x64
  slices_S4x2048x3x16x64_S4x2048x1x16x64_0_0_1_0_0 : S4x2048x3x16x64.Slices ![0, 0, 1, 0, 0] S4x2048x1x16x64
  slices_S4x2048x3x16x64_S4x2048x1x16x64_0_0_2_0_0 : S4x2048x3x16x64.Slices ![0, 0, 2, 0, 0] S4x2048x1x16x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Body0.lean ====
/-
  The first region (the projection of the input rows onto the 3072 query / key / value columns), one grid point at a
  time: what the body leaves in its output block as a function of the two input blocks, the body's run, and the data
  the pipeline's launch theorem takes — stated at the contents `V` the region is entered with.
-/
import proofs.«121129_j18940805776011_2_alg».proof.Proof.Gen.Kernel.Launch
import proofs.«121129_j18940805776011_2_alg».proof.Proof.Gen.Kernel.Skeleton
import proofs.«121129_j18940805776011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes through: each is its whole buffer. -/
abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rO0 : Rect S512x3072 := Rect.unit (s := S512x3072) ![0, 0] S512x3072.size inb_S512x3072_S512x3072_0_0

/-- The output block after the body: its one store, of the product of the two loaded blocks. -/
def out0_2 (x0 : Vec F S512x1024 .bf16) (x1 : Vec F S3072x1024 .bf16) : Vec F S512x3072 .bf16 :=
  View.canon [⟨rO0, k0_pay1 (View.ld x0 rX0) (View.ld x1 rW0)⟩]

theorem cover0_2 (p0 : Vec F S512x3072 .bf16) (y : S512x3072.Idx) :
    ∃ pc ∈ ([⟨rO0, p0⟩] : List (View.Piece (Elt F) S512x3072 .bf16)), y ∈ pc.1.set :=
  View.cover_of_tiled [⟨rO0, p0⟩] S512x3072.size (by rfl) y

set_option maxHeartbeats 1000000 in
/-- The body on whole staging buffers: the inputs are kept, the output ends at `out0_2` of them. -/
theorem sound_kernel0 (c : Dev nD) (E : Set ℕ) (i : grid0.Coords) (arg1 : Memref sig .tc .vmem S512x1024 .bf16) (harg1 : arg1.IsWhole)
    (arg2 : Memref sig .tc .vmem S3072x1024 .bf16) (harg2 : arg2.IsWhole) (arg3 : Memref sig .tc .vmem S512x3072 .bf16) (harg3 : arg3.IsWhole)
    (x0 : Vec F S512x1024 .bf16) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Body1.lean ====
/-
  The second region (attention, two heads per grid point), one grid point at a time: what the body leaves in its
  output block as a function of the query, key and value blocks, the body's run, and the data the pipeline's launch
  theorem takes — stated at the contents `V` the region is entered with. The three input windows read one array (the
  projected rows: queries, keys and values are column ranges of it); each holds its own part of the array's share.
-/
import proofs.«121129_j18940805776011_2_alg».proof.Proof.Gen.Kernel.Launch
import proofs.«121129_j18940805776011_2_alg».proof.Proof.Gen.Kernel.Skeleton
import proofs.«121129_j18940805776011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes through: each is its whole buffer. -/
abbrev rQ1 : Rect S1x512x128 := Rect.unit (s := S1x512x128) ![0, 0, 0] S1x512x128.size inb_S1x512x128_S1x512x128_0_0_0
abbrev rK1 : Rect S1x2048x128 := Rect.unit (s := S1x2048x128) ![0, 0, 0] S1x2048x128.size inb_S1x2048x128_S1x2048x128_0_0_0

/-- The output block after the body: its one store, the two heads' results side by side. -/
def out1_3 (x0 : Vec F S1x512x128 .bf16) (x1 x2 : Vec F S1x2048x128 .bf16) : Vec F S1x512x128 .bf16 :=
  View.canon [⟨rQ1, k1_pay1 (k1_pay5 (View.ld x0 rQ1) (View.ld x1 rK1) (View.ld x2 rK1)) (k1_pay6 (View.ld x2 rK1)) (k1_pay7 (View.ld x0 rQ1) (View.ld x1 rK1))⟩]

theorem cover1_3 (p0 : Vec F S1x512x128 .bf16) (y : S1x512x128.Idx) :
    ∃ pc ∈ ([⟨rQ1, p0⟩] : List (View.Piece (Elt F) S1x512x128 .bf16)), y ∈ pc.1.set :=
  View.cover_of_tiled [⟨rQ1, p0⟩] S1x512x128.size (by rfl) y

set_option maxHeartbeats 1000000 in
/-- The body on whole staging buffers: the inputs are kept, the output ends at `out1_3` of them. -/
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .bf16) (harg6 : arg6.IsWhole)
    (x0 : Vec F S1x512x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The data of the second pipeline on core `c`: the three input windows share the projected rows' array, a third of
    its share each (a half, and the halves of the other half). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.Body2.lean ====
/-
  The third region (the projection of the merged head outputs onto the 1024 result columns, plus the bias row), one
  grid point at a time: what the body leaves in its output block as a function of the three input blocks, the body's
  run, and the data the pipeline's launch theorem takes — stated at the contents `V` the region is entered with.
-/
import proofs.«121129_j18940805776011_2_alg».proof.Proof.Gen.Kernel.Launch
import proofs.«121129_j18940805776011_2_alg».proof.Proof.Gen.Kernel.Skeleton
import proofs.«121129_j18940805776011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes through: each is its whole buffer. -/
abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- The output block after the body: its one store, of the product of the two loaded blocks plus the bias row. -/
def out2_3 (x0 : Vec F S512x1024 .bf16) (x1 : Vec F S1024x1024 .bf16) (x2 : Vec F S1x1024 .f32) : Vec F S512x1024 .f32 :=
  View.canon [⟨rX2, k2_pay1 (View.ld x0 rX2) (View.ld x1 rW2) (View.ld x2 rB2)⟩]

theorem cover2_3 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

set_option maxHeartbeats 1000000 in
/-- The body on whole staging buffers: the inputs are kept, the output ends at `out2_3` of them. -/
theorem sound_kernel2 (c : Dev nD) (E : Set ℕ) (i : grid2.Coords) (arg1 : Memref sig .tc .vmem S512x1024 .bf16) (harg1 : arg1.IsWhole)
    (arg2 : Memref sig .tc .vmem S1024x1024 .bf16) (harg2 : arg2.IsWhole) (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The data of the third pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.Run.lean ====
/-
  The whole run of the program: the host operations and the three regions in order, as segments over one thread state
  — every buffer of the main function at a named valuation — so that the final memory is read off the last valuation.
  The valuations: the launch memory; after the first host stretch (the three casts and the flattening of the input);
  after region one (the projected rows' array at what its write-backs leave); after the next reshape; after region
  two (the attention output); after the two reshapes; after region three (the result rows); after the last reshape.
-/
import proofs.«121129_j18940805776011_2_alg».proof.Proof.K.Body0
import proofs.«121129_j18940805776011_2_alg».proof.Proof.K.Body1
import proofs.«121129_j18940805776011_2_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region one: the projected rows' array at what the write-backs leave, every other buffer as entered. -/
def W2 (c : Dev nD) : Valuation τ sig (Elt F) :=
  Function.update (W1 m c) (Proc.devRef .tc main_v4) ((dat0 (V1 m) c).arrAt 2 cfg0.N)
theorem W2_self (c : Dev nD) : W2 m c (Proc.devRef .tc main_v4) = (dat0 (V1 m) c).arrAt 2 cfg0.N := by
  unfold W2; exact Function.update_self ..
theorem W2_of_ne (c : Dev nD) (b : Ref sig .tc) (hb : b ≠ main_v4) : W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b
theorem hF0 (c : Dev nD) : ∀ w : Fin cfg0.W, (dat0 (V1 m) c).arrAt w cfg0.N = V2 m c (Pipeline.arrRef spec0 w)
  | ⟨0, _⟩ => ((dat0 (V1 m) c).arrAt_in 0 rfl _).trans ((A_eq0 (V1 m) c 0).trans (W2_of_ne m c main_v3 (by decide)).symm)
  | ⟨1, _⟩ => ((dat0 (V1 m) c).arrAt_in 1 rfl _).trans ((A_eq0 (V1 m) c 1).trans (W2_of_ne m c main_v1 (by decide)).symm)
  | ⟨2, _⟩ => (W2_self m c).symm
theorem hrest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region two: the attention output array at what the write-backs leave. -/
def W4 (c : Dev nD) : Valuation τ sig (Elt F) :=
  Function.update (W3 m c) (Proc.devRef .tc main_v6) ((dat1 (V3 m) c).arrAt 3 cfg1.N)
theorem W4_self (c : Dev nD) : W4 m c (Proc.devRef .tc main_v6) = (dat1 (V3 m) c).arrAt 3 cfg1.N := by
  unfold W4; exact Function.update_self ..
theorem W4_of_ne (c : Dev nD) (b : Ref sig .tc) (hb : b ≠ main_v6) : W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b

abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region three: the result rows' array at what the write-backs leave. -/
def W6 (c : Dev nD) : Valuation τ sig (Elt F) :=
  Function.update (W5 m c) (Proc.devRef .tc main_v9) ((dat2 (V5 m) c).arrAt 3 cfg2.N)
theorem W6_self (c : Dev nD) : W6 m c (Proc.devRef .tc main_v9) = (dat2 (V5 m) c).arrAt 3 cfg2.N := by
  unfold W6; exact Function.update_self ..
theorem W6_of_ne (c : Dev nD) (b : Ref sig .tc) (hb : b ≠ main_v9) : W6 m c (Proc.devRef .tc b) = W5 m c (Proc.devRef .tc b) := by
  unfold W6; exact Function.update_of_ne (StableHlo.devRef_ne_of_ne hb) _ _
abbrev V6 : (c : Dev nD) → (b : Ref sig .tc) → Buf (Elt F) ((c : Thread nD τ).loc b) := fun c b => W6 m c b
theorem hF2 (c : Dev nD) : ∀ w : Fin cfg2.W, (dat2 (V5 m) c).arrAt w cfg2.N = V6 m c (Pipeline.arrRef spec2 w)
  | ⟨0, _⟩ => ((dat2 (V5 m) c).arrAt_in 0 rfl _).trans ((A_eq2 (V5 m) c 0).trans (W6_of_ne m c main_v7 (by decide)).symm)
  | ⟨1, _⟩ => ((dat2 (V5 m) c).arrAt_in 1 rfl _).trans ((A_eq2 (V5 m) c 1).trans (W6_of_ne m c main_v2 (by decide)).symm)
  | ⟨2, _⟩ => ((dat2 (V5 m) c).arrAt_in 2 rfl _).trans ((A_eq2 (V5 m) c 2).trans (W6_of_ne m c main_v8 (by decide)).symm)
  | ⟨3, _⟩ => (W6_self m c).symm
theorem hrest2 (c : Dev nD) : ∀ b, b ∉ Finset.univ.image (Pipeline.arrRef spec2) → V6 m c b = V5 m c b :=
  fun b hb => W6_of_ne m c b fun e => hb (Finset.mem_image.mpr ⟨3, Finset.mem_univ _, e.symm⟩)

abbrev W7 : Dev nD → Valuation τ sig (Elt F) := fun c => StableHlo.after hostOps3 (W6 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at `W1`, left with them at `W2`. Its
    arrays are split out of the unscoped buffers and put back at the exit contents; the generator register rides through
    the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at the exit contents; the generator register rides through
    the invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.K.Run2.lean ====
/-
  Region two (attention) as a segment, and the launch of the whole program. The region's three input windows read ONE
  array, so its full share is dealt among them on entry (a half, and the two halves of the other half) and rejoined on
  exit; the output window's array is a buffer of its own.
-/
import proofs.«121129_j18940805776011_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region two's arrays, at contents that agree on the shared buffer, are the two buffers behind them whole. -/
theorem arrays1_iff (c : Dev nD) (V : (c : Dev nD) → (b : Ref sig .tc) → Buf (Elt F) ((c : Thread nD τ).loc b))
    (A : (w : Fin cfg1.W) → Buf (Elt F) ((cfg1.win w).arr.view.loc (c : Thread nD τ)))
    (G5 : Buf (Elt F) ((c : Thread nD τ).loc main_v5)) (G6 : Buf (Elt F) ((c : Thread nD τ).loc main_v6))
    (h0 : A 0 = G5) (h1 : A 1 = G5) (h2 : A 2 = G5) (h3 : A 3 = G6) :
    ((dat1 V c).arrays A : sProp 𝕄) ⊣⊢ iprop((((c : Thread nD τ).loc main_v5) ↦{fullShare} G5) ∗ (((c : Thread nD τ).loc main_v6) ↦{fullShare} G6)) := by
  have e : ((dat1 V c).arrays A : sProp 𝕄)
      = bigSep Finset.univ fun w => (((c : Thread nD τ).loc (Pipeline.arrRef spec1 w)) ↦{(dat1 V c).share w} A w : sProp 𝕄) := by
    unfold Dat.arrays
    exact bigSep_congr fun w _ => by rw [(arr_whole1 w).set_eq_univ]
  rw [e, bigSep_W1]
  show iprop((((c : Thread nD τ).loc main_v5) ↦{fullShare.left} A 0) ∗ (((c : Thread nD τ).loc main_v5) ↦{fullShare.right.left} A 1)
      ∗ (((c : Thread nD τ).loc main_v5) ↦{fullShare.right.right} A 2) ∗ (((c : Thread nD τ).loc main_v6) ↦{fullShare} A 3)) ⊣⊢ _
  rw [h0, h1, h2, h3]
  refine ⟨?_, ?_⟩
  · iintro ⟨H0, H1, H2, H3⟩
    isplitl [H0 H1 H2]
    · iapply (pointsTo_share (PosShare.mem_left_op_right fullShare)).2
      isplitl [H0]; · iexact H0
      iapply (pointsTo_share (PosShare.mem_left_op_right fullShare.right)).2
      isplitl [H1]; · iexact H1
      iexact H2
    iexact H3
  · iintro ⟨H, H3⟩
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    isplitl [H2]; · iexact H2
    iexact H3

/-- The distinct buffers behind region two's arrays: the projected rows and the attention output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)) := by
  unfold Pipeline.arrBufs
  rw [bigSep_eq_bigSepL_of_eq [main_v5, main_v6] (by decide) (by decide)]
  rfl

theorem hrest1 (c : Dev nD) : ∀ b, b ∉ Finset.univ.image (Pipeline.arrRef spec1) → V4 m c b = V3 m c b :=
  fun b hb => W4_of_ne m c b fun e => hb (Finset.mem_image.mpr ⟨3, Finset.mem_univ _, e.symm⟩)

/-- Entry of region two: every unscoped buffer at the entry contents is the region's arrays (the shared one dealt
    among its three windows) and the rest. -/
theorem entry1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  have hs := Pipeline.unscopedBufs_split₀ (Ix := Unit) (Name := ℕ) (U := UR sig nD τ) (Lvl := ℕ) (Pipeline.pin (pcfgs (F := F)) adm) 1
    winFacts₀1.arr_unscoped c (V3 m c)
  rw [Pipeline.unscopedBufs_held] at hs
  rw [hs]
  refine sep_mono ?_ .rfl
  rw [show (Pipeline.pin (pcfgs (F := F)) adm 1).spec = spec1 from rfl, arrBufs1_eq]
  exact (arrays1_iff c (V3 m) ((pdats m 1 c).arrAt · 0) (V3 m c main_v5) (V3 m c main_v6) rfl rfl rfl rfl).2

/-- Exit of region two: its arrays at their final contents and the rest are every unscoped buffer at the exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have hs := Pipeline.unscopedBufs_split₀ (Ix := Unit) (Name := ℕ) (U := UR sig nD τ) (Lvl := ℕ) (Pipeline.pin (pcfgs (F := F)) adm) 1
    winFacts₀1.arr_unscoped c (V4 m c)
  rw [Pipeline.unscopedBufs_held] at hs
  rw [hs]
  refine sep_mono ?_ (Entails.of_eq ?_)
  · rw [show (Pipeline.pin (pcfgs (F := F)) adm 1).spec = spec1 from rfl, arrBufs1_eq]
    refine (arrays1_iff c (V3 m) ((pdats m 1 c).arrAt · cfg1.N) (V4 m c main_v5) (V4 m c main_v6) ?_ ?_ ?_ ?_).1
    · exact ((dat1 (V3 m) c).arrAt_in 0 rfl _).trans ((A_eq1 (V3 m) c 0).trans (W4_of_ne m c main_v5 (by decide)).symm)
    · exact ((dat1 (V3 m) c).arrAt_in 1 rfl _).trans ((A_eq1 (V3 m) c 1).trans (W4_of_ne m c main_v5 (by decide)).symm)
    · exact ((dat1 (V3 m) c).arrAt_in 2 rfl _).trans ((A_eq1 (V3 m) c 2).trans (W4_of_ne m c main_v5 (by decide)).symm)
    · exact (W4_self m c).symm
  · unfold Pipeline.unscopedRest
    exact bigSep_congr fun b hb => by rw [hrest1 m c b (Finset.mem_sdiff.mp hb).2]

set_option backward.isDefEq.respectTransparency.types false in
/-- Region two over the thread state: entered with every unscoped buffer at `W3`, left with them at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hjoin := exit1 m c
      iapply hjoin; isplitl [Ha] <;> iassumption
    isplitl [HY]; · iexact HY
    unfold Pipeline.Dat.owesAt Pipeline.owesWithin
    icases HO with ⟨%W, -, HO⟩; iexists W; iexact HO

/-! ## The segments in order, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every buffer of the main function at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Frm

end
-- ==== Proof.K.Args.lean ====
/-
  No host operation and no region writes an argument array: read through the valuations from the last back to the
  launch memory, each argument's buffer is what it was launched with. With the whole run this is the frame.
-/
import proofs.«121129_j18940805776011_2_alg».proof.Proof.K.Run2
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W7_main_arg0 (c : Dev nD) : W7 m c (Proc.devRef .tc main_arg0) = m ((c : Thread nD τ).loc main_arg0) := by
  show StableHlo.after hostOps3 (W6 m c) (Proc.devRef .tc main_arg0) = _
  after_results
  rw [W6_of_ne m c main_arg0 (by decide)]
  show StableHlo.after hostOps2 (W4 m c) (Proc.devRef .tc main_arg0) = _
  after_results
  rw [W4_of_ne m c main_arg0 (by decide)]
  show StableHlo.after hostOps1 (W2 m c) (Proc.devRef .tc main_arg0) = _
  after_results
  rw [W2_of_ne m c main_arg0 (by decide)]
  show StableHlo.after hostOps0 (W0 m c) (Proc.devRef .tc main_arg0) = _
  after_results
theorem W7_main_arg1 (c : Dev nD) : W7 m c (Proc.devRef .tc main_arg1) = m ((c : Thread nD τ).loc main_arg1) := by
  show StableHlo.after hostOps3 (W6 m c) (Proc.devRef .tc main_arg1) = _
  after_results
  rw [W6_of_ne m c main_arg1 (by decide)]
  show StableHlo.after hostOps2 (W4 m c) (Proc.devRef .tc main_arg1) = _
  after_results
  rw [W4_of_ne m c main_arg1 (by decide)]
  show StableHlo.after hostOps1 (W2 m c) (Proc.devRef .tc main_arg1) = _
  after_results
  rw [W2_of_ne m c main_arg1 (by decide)]
  show StableHlo.after hostOps0 (W0 m c) (Proc.devRef .tc main_arg1) = _
  after_results
theorem W7_main_arg2 (c : Dev nD) : W7 m c (Proc.devRef .tc main_arg2) = m ((c : Thread nD τ).loc main_arg2) := by
  show StableHlo.after hostOps3 (W6 m c) (Proc.devRef .tc main_arg2) = _
  after_results
  rw [W6_of_ne m c main_arg2 (by decide)]
  show StableHlo.after hostOps2 (W4 m c) (Proc.devRef .tc main_arg2) = _
  after_results
  rw [W4_of_ne m c main_arg2 (by decide)]
  show StableHlo.after hostOps1 (W2 m c) (Proc.devRef .tc main_arg2) = _
  after_results
  rw [W2_of_ne m c main_arg2 (by decide)]
  show StableHlo.after hostOps0 (W0 m c) (Proc.devRef .tc main_arg2) = _
  after_results
theorem W7_main_arg3 (c : Dev nD) : W7 m c (Proc.devRef .tc main_arg3) = m ((c : Thread nD τ).loc main_arg3) := by
  show StableHlo.after hostOps3 (W6 m c) (Proc.devRef .tc main_arg3) = _
  after_results
  rw [W6_of_ne m c main_arg3 (by decide)]
  show StableHlo.after hostOps2 (W4 m c) (Proc.devRef .tc main_arg3) = _
  after_results
  rw [W4_of_ne m c main_arg3 (by decide)]
  show StableHlo.after hostOps1 (W2 m c) (Proc.devRef .tc main_arg3) = _
  after_results
  rw [W2_of_ne m c main_arg3 (by decide)]
  show StableHlo.after hostOps0 (W0 m c) (Proc.devRef .tc main_arg3) = _
  after_results

/-- The frame: every weakly fair execution terminates, nothing faulting, the argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Frm

end
-- ==== Proof.KI.Body0.lean ====
/-
  The first region (the projection of the input rows onto the 3072 query / key / value columns), one grid point at a
  time: what the body leaves in its output block as a function of the two input blocks, the body's run, and the data
  the pipeline's launch theorem takes — stated at the contents `V` the region is entered with.
-/
import proofs.«121129_j18940805776011_2_alg».proof.Proof.Gen.KernelIdeal.Launch
import proofs.«121129_j18940805776011_2_alg».proof.Proof.Gen.KernelIdeal.Skeleton
import proofs.«121129_j18940805776011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes through: each is its whole buffer. -/
abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rO0 : Rect S512x3072 := Rect.unit (s := S512x3072) ![0, 0] S512x3072.size inb_S512x3072_S512x3072_0_0

/-- The output block after the body: its one store, of the product of the two loaded blocks. -/
def out0_2 (x0 : Vec F S512x1024 .bf16) (x1 : Vec F S3072x1024 .bf16) : Vec F S512x3072 .bf16 :=
  View.canon [⟨rO0, k0_pay1 (View.ld x0 rX0) (View.ld x1 rW0)⟩]

theorem cover0_2 (p0 : Vec F S512x3072 .bf16) (y : S512x3072.Idx) :
    ∃ pc ∈ ([⟨rO0, p0⟩] : List (View.Piece (Elt F) S512x3072 .bf16)), y ∈ pc.1.set :=
  View.cover_of_tiled [⟨rO0, p0⟩] S512x3072.size (by rfl) y

set_option maxHeartbeats 1000000 in
/-- The body on whole staging buffers: the inputs are kept, the output ends at `out0_2` of them. -/
theorem sound_kernel0 (c : Dev nD) (E : Set ℕ) (i : grid0.Coords) (arg1 : Memref sig .tc .vmem S512x1024 .bf16) (harg1 : arg1.IsWhole)
    (arg2 : Memref sig .tc .vmem S3072x1024 .bf16) (harg2 : arg2.IsWhole) (arg3 : Memref sig .tc .vmem S512x3072 .bf16) (harg3 : arg3.IsWhole)
    (x0 : Vec F S512x1024 .bf16) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Body1.lean ====
/-
  The second region (attention, two heads per grid point), one grid point at a time: what the body leaves in its
  output block as a function of the query, key and value blocks, the body's run, and the data the pipeline's launch
  theorem takes — stated at the contents `V` the region is entered with. The three input windows read one array (the
  projected rows: queries, keys and values are column ranges of it); each holds its own part of the array's share.
-/
import proofs.«121129_j18940805776011_2_alg».proof.Proof.Gen.KernelIdeal.Launch
import proofs.«121129_j18940805776011_2_alg».proof.Proof.Gen.KernelIdeal.Skeleton
import proofs.«121129_j18940805776011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes through: each is its whole buffer. -/
abbrev rQ1 : Rect S1x512x128 := Rect.unit (s := S1x512x128) ![0, 0, 0] S1x512x128.size inb_S1x512x128_S1x512x128_0_0_0
abbrev rK1 : Rect S1x2048x128 := Rect.unit (s := S1x2048x128) ![0, 0, 0] S1x2048x128.size inb_S1x2048x128_S1x2048x128_0_0_0

/-- The output block after the body: its one store, the two heads' results side by side. -/
def out1_3 (x0 : Vec F S1x512x128 .bf16) (x1 x2 : Vec F S1x2048x128 .bf16) : Vec F S1x512x128 .bf16 :=
  View.canon [⟨rQ1, k1_pay1 (k1_pay5 (View.ld x0 rQ1) (View.ld x1 rK1) (View.ld x2 rK1)) (k1_pay6 (View.ld x2 rK1)) (k1_pay7 (View.ld x0 rQ1) (View.ld x1 rK1))⟩]

theorem cover1_3 (p0 : Vec F S1x512x128 .bf16) (y : S1x512x128.Idx) :
    ∃ pc ∈ ([⟨rQ1, p0⟩] : List (View.Piece (Elt F) S1x512x128 .bf16)), y ∈ pc.1.set :=
  View.cover_of_tiled [⟨rQ1, p0⟩] S1x512x128.size (by rfl) y

set_option maxHeartbeats 1000000 in
/-- The body on whole staging buffers: the inputs are kept, the output ends at `out1_3` of them. -/
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .bf16) (harg6 : arg6.IsWhole)
    (x0 : Vec F S1x512x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The data of the second pipeline on core `c`: the three input windows share the projected rows' array, a third of
    its share each (a half, and the halves of the other half). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Body2.lean ====
/-
  The third region (the projection of the merged head outputs onto the 1024 result columns, plus the bias row), one
  grid point at a time: what the body leaves in its output block as a function of the three input blocks, the body's
  run, and the data the pipeline's launch theorem takes — stated at the contents `V` the region is entered with.
-/
import proofs.«121129_j18940805776011_2_alg».proof.Proof.Gen.KernelIdeal.Launch
import proofs.«121129_j18940805776011_2_alg».proof.Proof.Gen.KernelIdeal.Skeleton
import proofs.«121129_j18940805776011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes through: each is its whole buffer. -/
abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- The output block after the body: its one store, of the product of the two loaded blocks plus the bias row. -/
def out2_3 (x0 : Vec F S512x1024 .bf16) (x1 : Vec F S1024x1024 .bf16) (x2 : Vec F S1x1024 .f32) : Vec F S512x1024 .f32 :=
  View.canon [⟨rX2, k2_pay1 (View.ld x0 rX2) (View.ld x1 rW2) (View.ld x2 rB2)⟩]

theorem cover2_3 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

set_option maxHeartbeats 1000000 in
/-- The body on whole staging buffers: the inputs are kept, the output ends at `out2_3` of them. -/
theorem sound_kernel2 (c : Dev nD) (E : Set ℕ) (i : grid2.Coords) (arg1 : Memref sig .tc .vmem S512x1024 .bf16) (harg1 : arg1.IsWhole)
    (arg2 : Memref sig .tc .vmem S1024x1024 .bf16) (harg2 : arg2.IsWhole) (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The data of the third pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Run.lean ====
/-
  The whole run of the program: the host operations and the three regions in order, as segments over one thread state
  — every buffer of the main function at a named valuation — so that the final memory is read off the last valuation.
  The valuations: the launch memory; after the first host stretch (the three casts and the flattening of the input);
  after region one (the projected rows' array at what its write-backs leave); after the next reshape; after region
  two (the attention output); after the two reshapes; after region three (the result rows); after the last reshape.
-/
import proofs.«121129_j18940805776011_2_alg».proof.Proof.KI.Body0
import proofs.«121129_j18940805776011_2_alg».proof.Proof.KI.Body1
import proofs.«121129_j18940805776011_2_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region one: the projected rows' array at what the write-backs leave, every other buffer as entered. -/
def W2 (c : Dev nD) : Valuation τ sig (Elt F) :=
  Function.update (W1 m c) (Proc.devRef .tc main_v4) ((dat0 (V1 m) c).arrAt 2 cfg0.N)
theorem W2_self (c : Dev nD) : W2 m c (Proc.devRef .tc main_v4) = (dat0 (V1 m) c).arrAt 2 cfg0.N := by
  unfold W2; exact Function.update_self ..
theorem W2_of_ne (c : Dev nD) (b : Ref sig .tc) (hb : b ≠ main_v4) : W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b
theorem hF0 (c : Dev nD) : ∀ w : Fin cfg0.W, (dat0 (V1 m) c).arrAt w cfg0.N = V2 m c (Pipeline.arrRef spec0 w)
  | ⟨0, _⟩ => ((dat0 (V1 m) c).arrAt_in 0 rfl _).trans ((A_eq0 (V1 m) c 0).trans (W2_of_ne m c main_v3 (by decide)).symm)
  | ⟨1, _⟩ => ((dat0 (V1 m) c).arrAt_in 1 rfl _).trans ((A_eq0 (V1 m) c 1).trans (W2_of_ne m c main_v1 (by decide)).symm)
  | ⟨2, _⟩ => (W2_self m c).symm
theorem hrest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region two: the attention output array at what the write-backs leave. -/
def W4 (c : Dev nD) : Valuation τ sig (Elt F) :=
  Function.update (W3 m c) (Proc.devRef .tc main_v6) ((dat1 (V3 m) c).arrAt 3 cfg1.N)
theorem W4_self (c : Dev nD) : W4 m c (Proc.devRef .tc main_v6) = (dat1 (V3 m) c).arrAt 3 cfg1.N := by
  unfold W4; exact Function.update_self ..
theorem W4_of_ne (c : Dev nD) (b : Ref sig .tc) (hb : b ≠ main_v6) : W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b

abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region three: the result rows' array at what the write-backs leave. -/
def W6 (c : Dev nD) : Valuation τ sig (Elt F) :=
  Function.update (W5 m c) (Proc.devRef .tc main_v9) ((dat2 (V5 m) c).arrAt 3 cfg2.N)
theorem W6_self (c : Dev nD) : W6 m c (Proc.devRef .tc main_v9) = (dat2 (V5 m) c).arrAt 3 cfg2.N := by
  unfold W6; exact Function.update_self ..
theorem W6_of_ne (c : Dev nD) (b : Ref sig .tc) (hb : b ≠ main_v9) : W6 m c (Proc.devRef .tc b) = W5 m c (Proc.devRef .tc b) := by
  unfold W6; exact Function.update_of_ne (StableHlo.devRef_ne_of_ne hb) _ _
abbrev V6 : (c : Dev nD) → (b : Ref sig .tc) → Buf (Elt F) ((c : Thread nD τ).loc b) := fun c b => W6 m c b
theorem hF2 (c : Dev nD) : ∀ w : Fin cfg2.W, (dat2 (V5 m) c).arrAt w cfg2.N = V6 m c (Pipeline.arrRef spec2 w)
  | ⟨0, _⟩ => ((dat2 (V5 m) c).arrAt_in 0 rfl _).trans ((A_eq2 (V5 m) c 0).trans (W6_of_ne m c main_v7 (by decide)).symm)
  | ⟨1, _⟩ => ((dat2 (V5 m) c).arrAt_in 1 rfl _).trans ((A_eq2 (V5 m) c 1).trans (W6_of_ne m c main_v2 (by decide)).symm)
  | ⟨2, _⟩ => ((dat2 (V5 m) c).arrAt_in 2 rfl _).trans ((A_eq2 (V5 m) c 2).trans (W6_of_ne m c main_v8 (by decide)).symm)
  | ⟨3, _⟩ => (W6_self m c).symm
theorem hrest2 (c : Dev nD) : ∀ b, b ∉ Finset.univ.image (Pipeline.arrRef spec2) → V6 m c b = V5 m c b :=
  fun b hb => W6_of_ne m c b fun e => hb (Finset.mem_image.mpr ⟨3, Finset.mem_univ _, e.symm⟩)

abbrev W7 : Dev nD → Valuation τ sig (Elt F) := fun c => StableHlo.after hostOps3 (W6 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at `W1`, left with them at `W2`. Its
    arrays are split out of the unscoped buffers and put back at the exit contents; the generator register rides through
    the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at the exit contents; the generator register rides through
    the invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Run2.lean ====
/-
  Region two (attention) as a segment, and the launch of the whole program. The region's three input windows read ONE
  array, so its full share is dealt among them on entry (a half, and the two halves of the other half) and rejoined on
  exit; the output window's array is a buffer of its own.
-/
import proofs.«121129_j18940805776011_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region two's arrays, at contents that agree on the shared buffer, are the two buffers behind them whole. -/
theorem arrays1_iff (c : Dev nD) (V : (c : Dev nD) → (b : Ref sig .tc) → Buf (Elt F) ((c : Thread nD τ).loc b))
    (A : (w : Fin cfg1.W) → Buf (Elt F) ((cfg1.win w).arr.view.loc (c : Thread nD τ)))
    (G5 : Buf (Elt F) ((c : Thread nD τ).loc main_v5)) (G6 : Buf (Elt F) ((c : Thread nD τ).loc main_v6))
    (h0 : A 0 = G5) (h1 : A 1 = G5) (h2 : A 2 = G5) (h3 : A 3 = G6) :
    ((dat1 V c).arrays A : sProp 𝕄) ⊣⊢ iprop((((c : Thread nD τ).loc main_v5) ↦{fullShare} G5) ∗ (((c : Thread nD τ).loc main_v6) ↦{fullShare} G6)) := by
  have e : ((dat1 V c).arrays A : sProp 𝕄)
      = bigSep Finset.univ fun w => (((c : Thread nD τ).loc (Pipeline.arrRef spec1 w)) ↦{(dat1 V c).share w} A w : sProp 𝕄) := by
    unfold Dat.arrays
    exact bigSep_congr fun w _ => by rw [(arr_whole1 w).set_eq_univ]
  rw [e, bigSep_W1]
  show iprop((((c : Thread nD τ).loc main_v5) ↦{fullShare.left} A 0) ∗ (((c : Thread nD τ).loc main_v5) ↦{fullShare.right.left} A 1)
      ∗ (((c : Thread nD τ).loc main_v5) ↦{fullShare.right.right} A 2) ∗ (((c : Thread nD τ).loc main_v6) ↦{fullShare} A 3)) ⊣⊢ _
  rw [h0, h1, h2, h3]
  refine ⟨?_, ?_⟩
  · iintro ⟨H0, H1, H2, H3⟩
    isplitl [H0 H1 H2]
    · iapply (pointsTo_share (PosShare.mem_left_op_right fullShare)).2
      isplitl [H0]; · iexact H0
      iapply (pointsTo_share (PosShare.mem_left_op_right fullShare.right)).2
      isplitl [H1]; · iexact H1
      iexact H2
    iexact H3
  · iintro ⟨H, H3⟩
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    isplitl [H2]; · iexact H2
    iexact H3

/-- The distinct buffers behind region two's arrays: the projected rows and the attention output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)) := by
  unfold Pipeline.arrBufs
  rw [bigSep_eq_bigSepL_of_eq [main_v5, main_v6] (by decide) (by decide)]
  rfl

theorem hrest1 (c : Dev nD) : ∀ b, b ∉ Finset.univ.image (Pipeline.arrRef spec1) → V4 m c b = V3 m c b :=
  fun b hb => W4_of_ne m c b fun e => hb (Finset.mem_image.mpr ⟨3, Finset.mem_univ _, e.symm⟩)

/-- Entry of region two: every unscoped buffer at the entry contents is the region's arrays (the shared one dealt
    among its three windows) and the rest. -/
theorem entry1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  have hs := Pipeline.unscopedBufs_split₀ (Ix := Unit) (Name := ℕ) (U := UR sig nD τ) (Lvl := ℕ) (Pipeline.pin (pcfgs (F := F)) adm) 1
    winFacts₀1.arr_unscoped c (V3 m c)
  rw [Pipeline.unscopedBufs_held] at hs
  rw [hs]
  refine sep_mono ?_ .rfl
  rw [show (Pipeline.pin (pcfgs (F := F)) adm 1).spec = spec1 from rfl, arrBufs1_eq]
  exact (arrays1_iff c (V3 m) ((pdats m 1 c).arrAt · 0) (V3 m c main_v5) (V3 m c main_v6) rfl rfl rfl rfl).2

/-- Exit of region two: its arrays at their final contents and the rest are every unscoped buffer at the exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have hs := Pipeline.unscopedBufs_split₀ (Ix := Unit) (Name := ℕ) (U := UR sig nD τ) (Lvl := ℕ) (Pipeline.pin (pcfgs (F := F)) adm) 1
    winFacts₀1.arr_unscoped c (V4 m c)
  rw [Pipeline.unscopedBufs_held] at hs
  rw [hs]
  refine sep_mono ?_ (Entails.of_eq ?_)
  · rw [show (Pipeline.pin (pcfgs (F := F)) adm 1).spec = spec1 from rfl, arrBufs1_eq]
    refine (arrays1_iff c (V3 m) ((pdats m 1 c).arrAt · cfg1.N) (V4 m c main_v5) (V4 m c main_v6) ?_ ?_ ?_ ?_).1
    · exact ((dat1 (V3 m) c).arrAt_in 0 rfl _).trans ((A_eq1 (V3 m) c 0).trans (W4_of_ne m c main_v5 (by decide)).symm)
    · exact ((dat1 (V3 m) c).arrAt_in 1 rfl _).trans ((A_eq1 (V3 m) c 1).trans (W4_of_ne m c main_v5 (by decide)).symm)
    · exact ((dat1 (V3 m) c).arrAt_in 2 rfl _).trans ((A_eq1 (V3 m) c 2).trans (W4_of_ne m c main_v5 (by decide)).symm)
    · exact (W4_self m c).symm
  · unfold Pipeline.unscopedRest
    exact bigSep_congr fun b hb => by rw [hrest1 m c b (Finset.mem_sdiff.mp hb).2]

set_option backward.isDefEq.respectTransparency.types false in
/-- Region two over the thread state: entered with every unscoped buffer at `W3`, left with them at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hjoin := exit1 m c
      iapply hjoin; isplitl [Ha] <;> iassumption
    isplitl [HY]; · iexact HY
    unfold Pipeline.Dat.owesAt Pipeline.owesWithin
    icases HO with ⟨%W, -, HO⟩; iexists W; iexact HO

/-! ## The segments in order, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every buffer of the main function at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Frm

end
-- ==== Proof.KI.Args.lean ====
/-
  No host operation and no region writes an argument array: read through the valuations from the last back to the
  launch memory, each argument's buffer is what it was launched with. With the whole run this is the frame.
-/
import proofs.«121129_j18940805776011_2_alg».proof.Proof.KI.Run2
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W7_main_arg0 (c : Dev nD) : W7 m c (Proc.devRef .tc main_arg0) = m ((c : Thread nD τ).loc main_arg0) := by
  show StableHlo.after hostOps3 (W6 m c) (Proc.devRef .tc main_arg0) = _
  after_results
  rw [W6_of_ne m c main_arg0 (by decide)]
  show StableHlo.after hostOps2 (W4 m c) (Proc.devRef .tc main_arg0) = _
  after_results
  rw [W4_of_ne m c main_arg0 (by decide)]
  show StableHlo.after hostOps1 (W2 m c) (Proc.devRef .tc main_arg0) = _
  after_results
  rw [W2_of_ne m c main_arg0 (by decide)]
  show StableHlo.after hostOps0 (W0 m c) (Proc.devRef .tc main_arg0) = _
  after_results
theorem W7_main_arg1 (c : Dev nD) : W7 m c (Proc.devRef .tc main_arg1) = m ((c : Thread nD τ).loc main_arg1) := by
  show StableHlo.after hostOps3 (W6 m c) (Proc.devRef .tc main_arg1) = _
  after_results
  rw [W6_of_ne m c main_arg1 (by decide)]
  show StableHlo.after hostOps2 (W4 m c) (Proc.devRef .tc main_arg1) = _
  after_results
  rw [W4_of_ne m c main_arg1 (by decide)]
  show StableHlo.after hostOps1 (W2 m c) (Proc.devRef .tc main_arg1) = _
  after_results
  rw [W2_of_ne m c main_arg1 (by decide)]
  show StableHlo.after hostOps0 (W0 m c) (Proc.devRef .tc main_arg1) = _
  after_results
theorem W7_main_arg2 (c : Dev nD) : W7 m c (Proc.devRef .tc main_arg2) = m ((c : Thread nD τ).loc main_arg2) := by
  show StableHlo.after hostOps3 (W6 m c) (Proc.devRef .tc main_arg2) = _
  after_results
  rw [W6_of_ne m c main_arg2 (by decide)]
  show StableHlo.after hostOps2 (W4 m c) (Proc.devRef .tc main_arg2) = _
  after_results
  rw [W4_of_ne m c main_arg2 (by decide)]
  show StableHlo.after hostOps1 (W2 m c) (Proc.devRef .tc main_arg2) = _
  after_results
  rw [W2_of_ne m c main_arg2 (by decide)]
  show StableHlo.after hostOps0 (W0 m c) (Proc.devRef .tc main_arg2) = _
  after_results
theorem W7_main_arg3 (c : Dev nD) : W7 m c (Proc.devRef .tc main_arg3) = m ((c : Thread nD τ).loc main_arg3) := by
  show StableHlo.after hostOps3 (W6 m c) (Proc.devRef .tc main_arg3) = _
  after_results
  rw [W6_of_ne m c main_arg3 (by decide)]
  show StableHlo.after hostOps2 (W4 m c) (Proc.devRef .tc main_arg3) = _
  after_results
  rw [W4_of_ne m c main_arg3 (by decide)]
  show StableHlo.after hostOps1 (W2 m c) (Proc.devRef .tc main_arg3) = _
  after_results
  rw [W2_of_ne m c main_arg3 (by decide)]
  show StableHlo.after hostOps0 (W0 m c) (Proc.devRef .tc main_arg3) = _
  after_results

/-- The frame: every weakly fair execution terminates, nothing faulting, the argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Frm

end
-- ==== Proof.KI.Glue.lean ====
/-
  The host operations between the regions read at an index, at the exact instance: the casts to the narrow format are
  the identity there, and every reshape only regroups the leading axes (row b·2048 + n of a flattened array is row n of
  batch b), so each region's operand is, entry by entry, the array the step before it left.
-/
import proofs.«121129_j18940805776011_2_alg».proof.Proof.KI.Run
import Idealize.ShloMosaic.Lib.StableHlo.Run
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Glue

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- Row `n` of batch `b` in a flattened array. -/
abbrev flat (b : Fin 4) (n : Fin 2048) : Fin 8192 := ⟨b.val * 2048 + n.val, by omega⟩

/-! ## What the host stretches write, as terms -/

theorem v3_eq : (V1 m c main_v3 : S8192x1024.Idx → EReal)
    = shapeCast S8192x1024 (truncf (F := Ideal) .bf16 (m ((c : Thread nD τ).loc main_arg0) : FVec Ideal S4x2048x1024 .f32) bitsLt_bf16_f32 : FVec Ideal S4x2048x1024 .bf16) shapeCasts_S4x2048x1024_S8192x1024 := by
  show StableHlo.after hostOps0 (W0 m c) (Proc.devRef .tc main_v3) = _
  after_results
  rfl
theorem v1_eq : (V1 m c main_v1 : S3072x1024.Idx → EReal)
    = (truncf (F := Ideal) .bf16 (m ((c : Thread nD τ).loc main_arg1) : FVec Ideal S3072x1024 .f32) bitsLt_bf16_f32 : FVec Ideal S3072x1024 .bf16) := by
  show StableHlo.after hostOps0 (W0 m c) (Proc.devRef .tc main_v1) = _
  after_results
theorem v2_eq : (V1 m c main_v2 : S1024x1024.Idx → EReal)
    = (truncf (F := Ideal) .bf16 (m ((c : Thread nD τ).loc main_arg2) : FVec Ideal S1024x1024 .f32) bitsLt_bf16_f32 : FVec Ideal S1024x1024 .bf16) := by
  show StableHlo.after hostOps0 (W0 m c) (Proc.devRef .tc main_v2) = _
  after_results
theorem v5_eq : (V3 m c main_v5 : S4x2048x3072.Idx → EReal)
    = shapeCast S4x2048x3072 (W2 m c (Proc.devRef .tc main_v4) : S8192x3072.Idx → EReal) shapeCasts_S8192x3072_S4x2048x3072 := by
  show StableHlo.after hostOps1 (W2 m c) (Proc.devRef .tc main_v5) = _
  after_results
  rfl
theorem v7_eq : (V5 m c main_v7 : S8192x1024.Idx → EReal)
    = shapeCast S8192x1024 (W4 m c (Proc.devRef .tc main_v6) : S4x2048x1024.Idx → EReal) shapeCasts_S4x2048x1024_S8192x1024 := by
  show StableHlo.after hostOps2 (W4 m c) (Proc.devRef .tc main_v7) = _
  after_results
  rfl
theorem v8_eq : (V5 m c main_v8 : S1x1024.Idx → EReal)
    = shapeCast S1x1024 (W4 m c (Proc.devRef .tc main_arg3) : S1024.Idx → EReal) shapeCasts_S1024_S1x1024 := by
  show StableHlo.after hostOps2 (W4 m c) (Proc.devRef .tc main_v8) = _
  after_results
  rfl
theorem v10_eq : (W7 m c (Proc.devRef .tc main_v10) : S4x2048x1024.Idx → EReal)
    = shapeCast S4x2048x1024 (W6 m c (Proc.devRef .tc main_v9) : S8192x1024.Idx → EReal) shapeCasts_S8192x1024_S4x2048x1024 := by
  show StableHlo.after hostOps3 (W6 m c) (Proc.devRef .tc main_v10) = _
  after_results
  rfl

end Cert.KernelIdeal.Glue

end
-- ==== Proof.Pay0.lean ====
/-
  The first projection's block, read at an entry: row p of the input block against row e of the weight,
  summed over the 1024 shared columns. At the extended reals the format change is the identity and the
  matrix product into the zero accumulator is the plain sum of products.
-/
import proofs.«121129_j18940805776011_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem

/-! The operand indices of the product: the left operand is read at (row, k), the right at (column, k). -/

theorem lhs0_non (j : S512x3072.Idx) (q : dot_S512x1024_S3072x1024_S512x3072_1_1_0_0_n_n.contr.Idx) :
    (dot_S512x1024_S3072x1024_S512x3072_1_1_0_0_n_n.lhsIdx j q 0).val = (j 0).val := by
  unfold DotDims.lhsIdx
  rw [dif_neg (show ¬(0 : Fin S512x1024.rank) ∈ dot_S512x1024_S3072x1024_S512x3072_1_1_0_0_n_n.lhsBatch by decide),
    dif_pos (show (0 : Fin S512x1024.rank) ∈ dot_S512x1024_S3072x1024_S512x3072_1_1_0_0_n_n.lhsNonContracting by decide)]
  rfl
theorem lhs0_con (j : S512x3072.Idx) (q : dot_S512x1024_S3072x1024_S512x3072_1_1_0_0_n_n.contr.Idx) :
    (dot_S512x1024_S3072x1024_S512x3072_1_1_0_0_n_n.lhsIdx j q 1).val = (q ⟨0, by decide⟩).val :=
  dot_S512x1024_S3072x1024_S512x3072_1_1_0_0_n_n.lhsIdx_val_of_single rfl j q
theorem rhs0_non (j : S512x3072.Idx) (q : dot_S512x1024_S3072x1024_S512x3072_1_1_0_0_n_n.contr.Idx) :
    (dot_S512x1024_S3072x1024_S512x3072_1_1_0_0_n_n.rhsIdx j q 0).val = (j 1).val := by
  unfold DotDims.rhsIdx
  rw [dif_neg (show ¬(0 : Fin S3072x1024.rank) ∈ dot_S512x1024_S3072x1024_S512x3072_1_1_0_0_n_n.rhsBatch by decide),
    dif_pos (show (0 : Fin S3072x1024.rank) ∈ dot_S512x1024_S3072x1024_S512x3072_1_1_0_0_n_n.rhsNonContracting by decide)]
  rfl
theorem rhs0_con (j : S512x3072.Idx) (q : dot_S512x1024_S3072x1024_S512x3072_1_1_0_0_n_n.contr.Idx) :
    (dot_S512x1024_S3072x1024_S512x3072_1_1_0_0_n_n.rhsIdx j q 1).val = (q ⟨0, by decide⟩).val :=
  dot_S512x1024_S3072x1024_S512x3072_1_1_0_0_n_n.rhsIdx_val_of_single rfl j q

/-- The product of a 512 × 1024 block with the transpose of a 3072 × 1024 one, into zero, at entry (p, e). -/
theorem matmul0_apply (x : FVec Ideal S512x1024 .bf16) (w : FVec Ideal S3072x1024 .bf16) (p : Fin 512) (e : Fin 3072) :
    matmul dot_S512x1024_S3072x1024_S512x3072_1_1_0_0_n_n none x w (constant S512x3072 .f32 0x00000000#32) (ix2 p e)
      = ∑ c : Fin 1024, x (ix2 p c) * w (ix2 e c) := by
  refine (Ideal.matmul_constant_zero_apply dot_S512x1024_S3072x1024_S512x3072_1_1_0_0_n_n none x w (ix2 p e)).trans ?_
  rw [← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 p e) ((contrEquiv1 dot_S512x1024_S3072x1024_S512x3072_1_1_0_0_n_n 1024 rfl rfl).symm k) = ix2 p k :=
    funext fun a => Fin.ext (by
      match a with
      | ⟨0, _⟩ => exact lhs0_non _ _
      | ⟨1, _⟩ => exact (lhs0_con _ _).trans hk)
  have er : dot_S512x1024_S3072x1024_S512x3072_1_1_0_0_n_n.rhsIdx (ix2 p e) ((contrEquiv1 dot_S512x1024_S3072x1024_S512x3072_1_1_0_0_n_n 1024 rfl rfl).symm k) = ix2 e k :=
    funext fun a => Fin.ext (by
      match a with
      | ⟨0, _⟩ => exact rhs0_non _ _
      | ⟨1, _⟩ => exact (rhs0_con _ _).trans hk)
  rw [el, er]

/-- The first projection's stored block at entry (p, e). -/
theorem pay0_apply (v0 : Vec Ideal S512x1024 .bf16) (v2 : Vec Ideal S3072x1024 .bf16) (p : Fin 512) (e : Fin 3072) :
    Gen.k0_pay1 (F := Ideal) v0 v2 (ix2 p e) = ∑ c : Fin 1024, v0 (ix2 p c) * v2 (ix2 e c) := by
  unfold Gen.k0_pay1
  rw [shapeCast_self, shapeCast_self]
  exact matmul0_apply v0 v2 p e

end Cert.KernelIdeal.PayValue

end
-- ==== Proof.KI.Arr0.lean ====
/-
  The first region as one array: after its sixteen grid points, the projected array holds, at row r and column e,
  row r of the input rows against row e of the weights, summed over the 1024 shared columns. Each grid point writes
  512 consecutive rows, computed from the same 512 rows of the input and the whole weight array; the sixteen row
  blocks cover the array.
-/
import proofs.«121129_j18940805776011_2_alg».proof.Proof.KI.Body0
import proofs.«121129_j18940805776011_2_alg».proof.Proof.Pay0
import Idealize.ShloMosaic.Lib.Pipeline.Value
import Idealize.ShloMosaic.Lib.ValueIdx

set_option maxRecDepth 16384

noncomputable section

namespace Cert.KernelIdeal.ArrValue

open Cert.KernelIdeal Cert.KernelIdeal.Gen Cert.KernelIdeal.Frm Cert.KernelIdeal.PayValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- Rows against rows: entry (r, e) is row r of `X` times row e of `W`, summed over the shared columns. -/
def rowsByRows0 (X : S8192x1024.Idx → EReal) (W : S3072x1024.Idx → EReal) : S8192x3072.Idx → EReal :=
  fun i => ∑ k : Fin 1024, X (ix2 (⟨(i 0).val, (i 0).isLt⟩ : Fin 8192) k) * W (ix2 (⟨(i 1).val, (i 1).isLt⟩ : Fin 3072) k)

/-- The input rows, the weights, and the projected array after the region, as functions of literal index types. -/
abbrev arrX0 (c : Dev nD) : S8192x1024.Idx → EReal := V c main_v3
abbrev arrW0 (c : Dev nD) : S3072x1024.Idx → EReal := V c main_v1
abbrev arrOut0 (c : Dev nD) : S8192x3072.Idx → EReal := (dat0 (F := Ideal) V c).arrAt 2 cfg0.N

/-- What the projected array ends holding, as a function of the two arrays the region reads. -/
def G0 (c : Dev nD) : S8192x3072.Idx → EReal := rowsByRows0 (arrX0 V c) (arrW0 V c)

/-- The block indices over the grid: point `t` takes row block `t` of the input and of the output, and the one block of the weights. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows 512 t … 512 t + 511 of the input array. -/
theorem inRows0 (c : Dev nD) (t : Fin cfg0.N) (p : Fin 512) (k : Fin 1024) (r : Fin 8192) (hr : r.val = t.val * 512 + p.val) :
    (iblk0 V c 0 t : Vec Ideal S512x1024 .bf16) (ix2 p k) = arrX0 V c (ix2 r k) := by
  obtain ⟨e0, e1, -, -, -, -⟩ := blockIdx0 t
  unfold iblk0
  rw [View.read_apply]
  show arrX0 V c _ = _
  congr 1
  funext a; apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight block at every point is the whole weight array. -/
theorem inWeights0 (c : Dev nD) (t : Fin cfg0.N) (e : Fin 3072) (k : Fin 1024) :
    (iblk0 V c 1 t : Vec Ideal S3072x1024 .bf16) (ix2 e k) = arrW0 V c (ix2 e k) := by
  obtain ⟨-, -, e0, e1, -, -⟩ := blockIdx0 t
  unfold iblk0
  rw [View.read_apply]
  show arrW0 V c _ = _
  congr 1
  funext a; apply Fin.ext
  match a with
  | ⟨0, _⟩ => show win0_1.index t (0 : Fin 2) * 3072 + 1 * e.val = e.val; rw [e0]; omega
  | ⟨1, _⟩ => show win0_1.index t (1 : Fin 2) * 1024 + 1 * k.val = k.val; rw [e1]; omega

/-- The stored block of point `t` at its entry `j` is the array function at the entry `i` of row 512 t + (row of j). -/
theorem stored0 (c : Dev nD) (t : Fin cfg0.N) (j : S512x3072.Idx) (i : S8192x3072.Idx)
    (h0 : (i 0).val = t.val * 512 + (j 0).val) (h1 : (i 1).val = (j 1).val) :
    k0_pay1 (F := Ideal) (iblk0 V c 0 t) (iblk0 V c 1 t) j = G0 V c i := by
  obtain ⟨p, e, rfl⟩ : ∃ (p : Fin 512) (e : Fin 3072), j = ix2 p e := ⟨j 0, j 1, eq_ix2 j⟩
  refine (pay0_apply (iblk0 V c 0 t) (iblk0 V c 1 t) p e).trans ?_
  unfold G0 rowsByRows0
  refine Finset.sum_congr rfl fun k _ => ?_
  rw [inRows0 V c t p k ⟨(i 0).val, (i 0).isLt⟩ h0, inWeights0 V c t e k]
  have he : (⟨(i 1).val, (i 1).isLt⟩ : Fin 3072) = e := Fin.ext h1
  rw [he]

/-- What point `t` writes back is block `t` of the array function. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero zeroOff]
  simp only [View.ld_unit_zero (S := S512x1024) zeroOff, View.ld_unit_zero (S := S3072x1024) zeroOff]
  obtain ⟨-, -, -, -, e0, e1⟩ := blockIdx0 t
  funext j
  show k0_pay1 (F := Ideal) (iblk0 V c 0 t) (iblk0 V c 1 t) j = G0 V c (((cfg0.win 2).blk t).view.emb j)
  refine stored0 V c t j _ ?_ ?_
  · show win0_2.index t (0 : Fin 2) * 512 + 1 * (j 0).val = t.val * 512 + (j 0).val; rw [e0]; omega
  · show win0_2.index t (1 : Fin 2) * 3072 + 1 * (j 1).val = (j 1).val; rw [e1]; omega

/-- An index of the array is in point `t`'s block iff each coordinate is in the block's range on its axis. -/
theorem mem_blk0 (t : Fin cfg0.N) (i : S8192x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v4).slice (win0_2.rect t)).set ↔ _
  rw [View.set_slice_whole, Rect.mem_set_unit]
  exact Iff.rfl

/-- Row `r` is written by point `r / 512`. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨-, -, -, -, e0, e1⟩ := blockIdx0 t
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 3072 ≤ (i 1).val ∧ (i 1).val < win0_2.index t (1 : Fin 2) * 3072 + 3072; rw [e1]; omega

/-- The projected array after the region is the array function. -/
theorem arr0_eq (c : Dev nD) : (dat0 (F := Ideal) V c).arrAt 2 cfg0.N = G0 V c :=
  (dat0 (F := Ideal) V c).arrAt_eq_of_cover 2 (G0 V c) (fun t _ => flushed0_eq V c t) cover0

/-- The projected array after the region, entry by entry. -/
theorem arr0 (c : Dev nD) (r : Fin 8192) (e : Fin 3072) :
    arrOut0 V c (ix2 r e) = ∑ k : Fin 1024, arrX0 V c (ix2 r k) * arrW0 V c (ix2 e k) := by
  show ((dat0 (F := Ideal) V c).arrAt 2 cfg0.N : S8192x3072.Idx → EReal) (ix2 r e) = _
  rw [arr0_eq]
  rfl

end Cert.KernelIdeal.ArrValue

end
-- ==== Proof.Spec.lean ====
/-
  The mathematics both programs compute, stated once over plain index functions on the extended reals.

  One attention head: for queries `q i`, keys `k j` and values `v j` (rows of 64 entries), the score of row `i`
  against row `j` is the dot product of `q i` and `k j` times the scale 2⁻⁵; a row's scores are shifted by their
  maximum (the fold of `max` from −∞), exponentiated, divided by their sum, and the result row is the weighted sum of
  the value rows. The whole layer: the input is projected to 3 · 16 · 64 columns (section, head, lane); each head
  attends within its batch; the 16 · 64 head outputs of a row are projected again and the bias is added.
-/
import Idealize.ShloMosaic.PureOps.Ideal
import Idealize.ShloMosaic.Lib.ValueIdx

noncomputable section

namespace Cert.Spec

open Idealize.ShloMosaic Idealize.ShloMosaic.ValueIdx

/-- The scale 2⁻⁵ = 1024^(-1/2), as the word both programs carry. -/
abbrev scale : EReal := Ideal.ofBits .f32 0x3D000000#32
/-- −∞, the value a row maximum starts from. -/
abbrev negInf : EReal := Ideal.ofBits .f32 0xFF800000#32

section Head

variable {n : Nat} (q : Fin n → Fin 64 → EReal) (k v : Fin 2048 → Fin 64 → EReal)

/-- The scaled dot product of query row `i` and key row `j`. -/
def score (i : Fin n) (j : Fin 2048) : EReal := (∑ d : Fin 64, q i d * k j d) * scale
/-- The maximum of row `i`'s scores. -/
def rowMax (i : Fin n) : EReal := (Finset.univ : Finset (Fin 2048)).fold max negInf (fun j => score q k i j)
/-- The shifted score, exponentiated. -/
def expo (i : Fin n) (j : Fin 2048) : EReal := Ideal.exp (score q k i j - rowMax q k i)
/-- The normalizer of row `i`. -/
def rowSum (i : Fin n) : EReal := ∑ j : Fin 2048, expo q k i j
/-- The head's output: row `i`, lane `d`. -/
def head (i : Fin n) (d : Fin 64) : EReal := ∑ j : Fin 2048, Ideal.div (expo q k i j) (rowSum q k i) * v j d

end Head

/-- The first projection at batch `b`, row `r`, column `e`: the row of `x` against row `e` of `w`. -/
def proj (x : (⟨3, ![4, 2048, 1024]⟩ : Shape).Idx → EReal) (w : (⟨2, ![3072, 1024]⟩ : Shape).Idx → EReal)
    (b : Fin 4) (r : Fin 2048) (e : Fin 3072) : EReal :=
  ∑ c : Fin 1024, x (ix3 b r c) * w (ix2 e c)

/-- The column of section `s` (0 queries, 1 keys, 2 values), head `h`, lane `d`. -/
def col (s : Fin 3) (h : Fin 16) (d : Fin 64) : Fin 3072 := ⟨s.val * 1024 + h.val * 64 + d.val, by omega⟩

/-- Head `h` of batch `b` attending: row `i`, lane `d`. -/
def attn (x : (⟨3, ![4, 2048, 1024]⟩ : Shape).Idx → EReal) (w : (⟨2, ![3072, 1024]⟩ : Shape).Idx → EReal)
    (b : Fin 4) (h : Fin 16) (i : Fin 2048) (d : Fin 64) : EReal :=
  head (fun i d => proj x w b i (col 0 h d)) (fun j d => proj x w b j (col 1 h d)) (fun j d => proj x w b j (col 2 h d)) i d

/-- The head outputs of a row laid side by side: column `c` is head `c / 64`, lane `c % 64`. -/
def merged (x : (⟨3, ![4, 2048, 1024]⟩ : Shape).Idx → EReal) (w : (⟨2, ![3072, 1024]⟩ : Shape).Idx → EReal)
    (b : Fin 4) (r : Fin 2048) (c : Fin 1024) : EReal :=
  attn x w b ⟨c.val / 64, by omega⟩ r ⟨c.val % 64, by omega⟩

/-- The layer's result at batch `b`, row `r`, column `e`. -/
def out (x : (⟨3, ![4, 2048, 1024]⟩ : Shape).Idx → EReal) (w : (⟨2, ![3072, 1024]⟩ : Shape).Idx → EReal)
    (wo : (⟨2, ![1024, 1024]⟩ : Shape).Idx → EReal) (bo : (⟨1, ![1024]⟩ : Shape).Idx → EReal)
    (b : Fin 4) (r : Fin 2048) (e : Fin 1024) : EReal :=
  (∑ c : Fin 1024, merged x w b r c * wo (ix2 e c)) + bo (ix1 e)

/-- The result array. -/
def G (x : (⟨3, ![4, 2048, 1024]⟩ : Shape).Idx → EReal) (w : (⟨2, ![3072, 1024]⟩ : Shape).Idx → EReal)
    (wo : (⟨2, ![1024, 1024]⟩ : Shape).Idx → EReal) (bo : (⟨1, ![1024]⟩ : Shape).Idx → EReal) :
    (⟨3, ![4, 2048, 1024]⟩ : Shape).Idx → EReal :=
  fun i => out x w wo bo ⟨(i 0).val, (i 0).isLt⟩ ⟨(i 1).val, (i 1).isLt⟩ ⟨(i 2).val, (i 2).isLt⟩

theorem G_ix3 (x : (⟨3, ![4, 2048, 1024]⟩ : Shape).Idx → EReal) (w : (⟨2, ![3072, 1024]⟩ : Shape).Idx → EReal)
    (wo : (⟨2, ![1024, 1024]⟩ : Shape).Idx → EReal) (bo : (⟨1, ![1024]⟩ : Shape).Idx → EReal)
    (b : Fin 4) (r : Fin 2048) (e : Fin 1024) : G x w wo bo (ix3 b r e) = out x w wo bo b r e := rfl

end Cert.Spec

end
-- ==== Proof.Pay1.lean ====
/-
  One step of the attention kernel, read at an entry. The step holds two heads side by side in the 128
  lanes of its blocks (lanes 0–63 and 64–127); for each it forms the scaled scores of the 512 query rows
  against the 2048 key rows, takes each row's maximum, exponentiates the shifted scores, divides by the
  row's sum and multiplies by the 2048 × 64 values; the two 512 × 64 results are laid side by side again.
  At the extended reals every format change is the identity, a matrix product into the zero accumulator
  is the plain sum of products, the lane maximum is the fold of max from −∞ and the lane sum is the sum,
  so the stored block at (row i, lane h·64 + d) is the head specification at (i, d) on the lanes of head h.
-/
import proofs.«121129_j18940805776011_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«121129_j18940805776011_2_alg».proof.Proof.Spec

noncomputable section

namespace Cert.KernelIdeal.PayValue

open Cert.KernelIdeal Cert.KernelIdeal.Gen Idealize.ShloMosaic Idealize.ShloMosaic.ValueIdx Idealize.SL.Sem

/-! ## One head on abstract operands

The kernel's chain of operations from a 512 × 64 query block `Q` and a 2048 × 64 key block `K`, named stage
by stage; the two heads of a step are these terms at the two lane windows. -/

/-- The scaled scores. -/
def scoresV (Q : FVec Ideal S512x64 .bf16) (K : FVec Ideal S2048x64 .bf16) : FVec Ideal S512x2048 .f32 :=
  mulf (matmul dot_S512x64_S2048x64_S512x2048_1_1_0_0_n_n none Q K (constant S512x2048 .f32 0x00000000#32))
    (broadcast S512x2048 (Scalar.ofBits .f32 0x3D000000#32))
/-- The rows' maxima. -/
def maxV (Q : FVec Ideal S512x64 .bf16) (K : FVec Ideal S2048x64 .bf16) : FVec Ideal S512 .f32 :=
  multiReduction .maximumf [1] S512 (scoresV Q K) 0xFF800000#32 reduces_S512x2048_S512 (.inl rfl) rfl
/-- The shifted scores, exponentiated. -/
def expV (Q : FVec Ideal S512x64 .bf16) (K : FVec Ideal S2048x64 .bf16) : FVec Ideal S512x2048 .f32 :=
  exp (subf (scoresV Q K)
    (broadcastTo S512x2048 (shapeCast S512x1 (maxV Q K) shapeCasts_S512_S512x1) broadcasts_S512x1_S512x2048))
/-- The rows' sums. -/
def sumV (Q : FVec Ideal S512x64 .bf16) (K : FVec Ideal S2048x64 .bf16) : FVec Ideal S512 .f32 :=
  multiReduction .add [1] S512 (expV Q K) 0x00000000#32 reduces_S512x2048_S512 (.inl rfl) rfl
/-- The softmax weights. -/
def weightsV (Q : FVec Ideal S512x64 .bf16) (K : FVec Ideal S2048x64 .bf16) : FVec Ideal S512x2048 .bf16 :=
  truncf .bf16 (divf (expV Q K)
    (broadcastTo S512x2048 (shapeCast S512x1 (sumV Q K) shapeCasts_S512_S512x1) broadcasts_S512x1_S512x2048))
    bitsLt_bf16_f32
/-- The head's output. -/
def headV (Q : FVec Ideal S512x64 .bf16) (K V : FVec Ideal S2048x64 .bf16) : FVec Ideal S512x64 .f32 :=
  matmul dot_S512x2048_S2048x64_S512x64_1_0_0_1_n_n none (weightsV Q K) V (constant S512x64 .f32 0x00000000#32)

/-- The first head of a step is this chain on the lanes from 0. -/
theorem k1_pay5_eq (v0 : Vec Ideal S1x512x128 .bf16) (v2 v4 : Vec Ideal S1x2048x128 .bf16) :
    Gen.k1_pay5 (F := Ideal) v0 v2 v4
      = headV (extractStridedSlice S512x64 ![0, 0] (Gen.k1_pay2 v0) slices_S512x128_o0_0_S512x64)
          (extractStridedSlice S2048x64 ![0, 0] (Gen.k1_pay3 v2) slices_S2048x128_o0_0_S2048x64)
          (extractStridedSlice S2048x64 ![0, 0] (Gen.k1_pay4 v4) slices_S2048x128_o0_0_S2048x64) := rfl

/-- The second head's weights are this chain on the lanes from 64. -/
theorem k1_pay7_eq (v0 : Vec Ideal S1x512x128 .bf16) (v2 : Vec Ideal S1x2048x128 .bf16) :
    Gen.k1_pay7 (F := Ideal) v0 v2
      = weightsV (extractStridedSlice S512x64 ![0, 64] (Gen.k1_pay2 v0) slices_S512x128_o0_64_S512x64)
          (extractStridedSlice S2048x64 ![0, 64] (Gen.k1_pay3 v2) slices_S2048x128_o0_64_S2048x64) := rfl

/-! ## The two matrix products at an entry -/

/-! The operand indices of the product: the left operand is read at (row, k), the right at (column, k). -/

theorem lhsS_non (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem lhsS_con (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem rhsS_non (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem rhsS_con (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- The product of a 512 × 64 block with the transpose of a 2048 × 64 one, into zero, at entry (i, j). -/
theorem matmulS_apply (x : FVec Ideal S512x64 .bf16) (w : FVec Ideal S2048x64 .bf16) (p : Fin 512) (e : Fin 2048) :
    matmul dot_S512x64_S2048x64_S512x2048_1_1_0_0_n_n none x w (constant S512x2048 .f32 0x00000000#32) (ix2 p e)
      = ∑ c : Fin 64, x (ix2 p c) * w (ix2 e c) := by
  refine (Ideal.matmul_constant_zero_apply dot_S512x64_S2048x64_S512x2048_1_1_0_0_n_n none x w (ix2 p e)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p e) ((contrEquiv1 dot_S512x64_S2048x64_S512x2048_1_1_0_0_n_n 64 rfl rfl).symm k) = ix2 p k :=
    funext fun a => Fin.ext (by
      match a with
      | ⟨0, _⟩ => exact lhsS_non _ _
      | ⟨1, _⟩ => exact (lhsS_con _ _).trans hk)
  have er : dot_S512x64_S2048x64_S512x2048_1_1_0_0_n_n.rhsIdx (ix2 p e) ((contrEquiv1 dot_S512x64_S2048x64_S512x2048_1_1_0_0_n_n 64 rfl rfl).symm k) = ix2 e k :=
    funext fun a => Fin.ext (by
      match a with
      | ⟨0, _⟩ => exact rhsS_non _ _
      | ⟨1, _⟩ => exact (rhsS_con _ _).trans hk)
  rw [el, er]

/-! The operand indices of the second product: the left operand is read at (row, k), the right at (k, column). -/

theorem lhsH_non (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem lhsH_con (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem rhsH_non (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl
theorem rhsH_con (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q

/-- The product of a 512 × 2048 block with a 2048 × 64 one, into zero, at entry (i, d). -/
theorem matmulH_apply (x : FVec Ideal S512x2048 .bf16) (w : FVec Ideal S2048x64 .bf16) (i : Fin 512) (d : Fin 64) :
    matmul dot_S512x2048_S2048x64_S512x64_1_0_0_1_n_n none x w (constant S512x64 .f32 0x00000000#32) (ix2 i d)
      = ∑ j : Fin 2048, x (ix2 i j) * w (ix2 j d) := by
  refine (Ideal.matmul_constant_zero_apply dot_S512x2048_S2048x64_S512x64_1_0_0_1_n_n none x w (ix2 i d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 i d) ((contrEquiv1 dot_S512x2048_S2048x64_S512x64_1_0_0_1_n_n 2048 rfl rfl).symm k) = ix2 i k :=
    funext fun a => Fin.ext (by
      match a with
      | ⟨0, _⟩ => exact lhsH_non _ _
      | ⟨1, _⟩ => exact (lhsH_con _ _).trans hk)
  have er : dot_S512x2048_S2048x64_S512x64_1_0_0_1_n_n.rhsIdx (ix2 i d) ((contrEquiv1 dot_S512x2048_S2048x64_S512x64_1_0_0_1_n_n 2048 rfl rfl).symm k) = ix2 k d :=
    funext fun a => Fin.ext (by
      match a with
      | ⟨0, _⟩ => exact (rhsH_con _ _).trans hk
      | ⟨1, _⟩ => exact rhsH_non _ _)
  rw [el, er]

/-! ## The stages at an entry -/

/-- A 512 × 64 block as 512 rows of 64 entries. -/
abbrev rowsQ (Q : FVec Ideal S512x64 .bf16) : Fin 512 → Fin 64 → EReal := fun i d => Q (ix2 i d)
/-- A 2048 × 64 block as 2048 rows of 64 entries. -/
abbrev rowsK (K : FVec Ideal S2048x64 .bf16) : Fin 2048 → Fin 64 → EReal := fun j d => K (ix2 j d)

/-- Row `i` of the reduced shape with lane `k` put back is entry (i, k). -/
theorem lift_row (h : S512x2048.Reduces [1] S512) (i : Fin 512) (k : Fin (S512x2048.size 1)) :
    h.lift (ix1 i) k = ix2 i (⟨k.val, k.isLt⟩ : Fin 2048) := by
  funext c; apply Fin.ext
  match c with
  | ⟨0, _⟩ => rfl
  | ⟨1, _⟩ => rfl

/-- A column of 512 entries kept as a 512 × 1 block and broadcast along the 2048 lanes reads, at (i, j), entry i. -/
theorem keepdims_apply {α : Type} (m : S512.Idx → α) (i : Fin 512) (j : Fin 2048) :
    broadcastTo S512x2048 (shapeCast S512x1 m shapeCasts_S512_S512x1) broadcasts_S512x1_S512x2048 (ix2 i j) = m (ix1 i) := by
  refine (broadcastTo_apply _ broadcasts_S512x1_S512x2048 (ix2 i j) (ix2 i (0 : Fin 1)) fun a => ?_).trans ?_
  · match a with
    | ⟨0, _⟩ => rfl
    | ⟨1, _⟩ => rfl
  · refine shapeCast_apply m shapeCasts_S512_S512x1 (ix2 i (0 : Fin 1)) (ix1 i) ?_
    rw [Shape.rowMajor_val_one, Shape.rowMajor_val_two]
    show i.val = i.val * 1 + 0
    omega

section Stages
variable (Q : FVec Ideal S512x64 .bf16) (K V : FVec Ideal S2048x64 .bf16)

theorem scoresV_apply (i : Fin 512) (j : Fin 2048) :
    scoresV Q K (ix2 i j) = Cert.Spec.score (rowsQ Q) (rowsK K) i j := by
  unfold scoresV Cert.Spec.score
  refine (mulf_apply _ _ (ix2 i j)).trans ?_
  rw [matmulS_apply Q K i j]
  rfl

theorem maxV_apply (i : Fin 512) :
    maxV Q K (ix1 i) = Cert.Spec.rowMax (rowsQ Q) (rowsK K) i := by
  unfold maxV Cert.Spec.rowMax
  refine (Ideal.multiReduction_maximumf_single (scoresV Q K) 0xFF800000#32 reduces_S512x2048_S512 (.inl rfl) rfl (ix1 i)).trans ?_
  have hf : (scoresV Q K ∘ reduces_S512x2048_S512.lift (ix1 i))
      = fun j : Fin 2048 => Cert.Spec.score (rowsQ Q) (rowsK K) i j :=
    funext fun k => (congrArg (scoresV Q K) (lift_row _ i k)).trans (scoresV_apply Q K i _)
  exact congrArg (fun f => Finset.fold max (Ideal.ofBits .f32 0xFF800000#32) f (Finset.univ : Finset (Fin 2048))) hf

theorem expV_apply (i : Fin 512) (j : Fin 2048) :
    expV Q K (ix2 i j) = Cert.Spec.expo (rowsQ Q) (rowsK K) i j := by
  unfold expV Cert.Spec.expo
  show Ideal.exp (scoresV Q K (ix2 i j) - broadcastTo S512x2048 (shapeCast S512x1 (maxV Q K) shapeCasts_S512_S512x1)
    broadcasts_S512x1_S512x2048 (ix2 i j)) = _
  rw [keepdims_apply, scoresV_apply, maxV_apply]

theorem sumV_apply (i : Fin 512) :
    sumV Q K (ix1 i) = Cert.Spec.rowSum (rowsQ Q) (rowsK K) i := by
  unfold sumV Cert.Spec.rowSum
  refine (Ideal.multiReduction_add_single (expV Q K) 0x00000000#32 reduces_S512x2048_S512 (.inl rfl) rfl (ix1 i)).trans ?_
  exact Finset.sum_congr rfl fun k _ => (congrArg (expV Q K) (lift_row _ i k)).trans (expV_apply Q K i _)

theorem weightsV_apply (i : Fin 512) (j : Fin 2048) :
    weightsV Q K (ix2 i j)
      = Ideal.div (Cert.Spec.expo (rowsQ Q) (rowsK K) i j) (Cert.Spec.rowSum (rowsQ Q) (rowsK K) i) := by
  unfold weightsV
  show Ideal.div (expV Q K (ix2 i j)) (broadcastTo S512x2048 (shapeCast S512x1 (sumV Q K) shapeCasts_S512_S512x1)
    broadcasts_S512x1_S512x2048 (ix2 i j)) = _
  rw [keepdims_apply, expV_apply, sumV_apply]

theorem headV_apply (i : Fin 512) (d : Fin 64) :
    headV Q K V (ix2 i d) = Cert.Spec.head (rowsQ Q) (rowsK K) (rowsK V) i d := by
  unfold headV Cert.Spec.head
  refine (matmulH_apply (weightsV Q K) V i d).trans ?_
  exact Finset.sum_congr rfl fun j _ => congrArg (· * V (ix2 j d)) (weightsV_apply Q K i j)

end Stages

/-! ## The lane windows of the loaded blocks -/

/-- Lane `d` of head `hh` of a step: column `hh · 64 + d` of the 128. -/
abbrev lane (hh : Fin 2) (d : Fin 64) : Fin 128 := ⟨hh.val * 64 + d.val, by omega⟩

/-- The query block's lane window from `o`, at (i, d): the loaded block at (0, i, o + d). -/
theorem q_window (v0 : Vec Ideal S1x512x128 .bf16) (o : Nat) (h : S512x128.Slices ![0, o] S512x64)
    (i : Fin 512) (d : Fin 64) (c : Fin 128) (hc : c.val = o + d.val) :
    extractStridedSlice S512x64 ![0, o] (Gen.k1_pay2 (F := Ideal) v0) h (ix2 i d) = v0 (ix3 (0 : Fin 1) i c) := by
  refine (slice2_axis1_apply o _ h i d c hc).trans ?_
  unfold Gen.k1_pay2
  exact shapeCast_1ab_ab_apply v0 shapeCasts_S1x512x128_S512x128 i c

/-- The key block's lane window from `o`, at (j, d): the loaded block at (0, j, o + d). -/
theorem k_window (v2 : Vec Ideal S1x2048x128 .bf16) (o : Nat) (h : S2048x128.Slices ![0, o] S2048x64)
    (j : Fin 2048) (d : Fin 64) (c : Fin 128) (hc : c.val = o + d.val) :
    extractStridedSlice S2048x64 ![0, o] (Gen.k1_pay3 (F := Ideal) v2) h (ix2 j d) = v2 (ix3 (0 : Fin 1) j c) := by
  refine (slice2_axis1_apply o _ h j d c hc).trans ?_
  unfold Gen.k1_pay3
  exact shapeCast_1ab_ab_apply v2 shapeCasts_S1x2048x128_S2048x128 j c

/-- The value block's lane window from `o`, at (j, d): the loaded block at (0, j, o + d). -/
theorem v_window (v4 : Vec Ideal S1x2048x128 .bf16) (o : Nat) (h : S2048x128.Slices ![0, o] S2048x64)
    (j : Fin 2048) (d : Fin 64) (c : Fin 128) (hc : c.val = o + d.val) :
    extractStridedSlice S2048x64 ![0, o] (Gen.k1_pay4 (F := Ideal) v4) h (ix2 j d) = v4 (ix3 (0 : Fin 1) j c) := by
  refine (slice2_axis1_apply o _ h j d c hc).trans ?_
  unfold Gen.k1_pay4
  exact shapeCast_1ab_ab_apply v4 shapeCasts_S1x2048x128_S2048x128 j c

/-- The chain on the lane windows from `o = hh · 64` is the head specification on the lanes of head `hh`. -/
theorem headV_window (v0 : Vec Ideal S1x512x128 .bf16) (v2 v4 : Vec Ideal S1x2048x128 .bf16) (hh : Fin 2) (o : Nat)
    (ho : o = hh.val * 64) (hq : S512x128.Slices ![0, o] S512x64) (hk : S2048x128.Slices ![0, o] S2048x64)
    (i : Fin 512) (d : Fin 64) :
    headV (extractStridedSlice S512x64 ![0, o] (Gen.k1_pay2 (F := Ideal) v0) hq)
        (extractStridedSlice S2048x64 ![0, o] (Gen.k1_pay3 (F := Ideal) v2) hk)
        (extractStridedSlice S2048x64 ![0, o] (Gen.k1_pay4 (F := Ideal) v4) hk) (ix2 i d)
      = Cert.Spec.head (fun i d => v0 (ix3 (0 : Fin 1) i (lane hh d))) (fun j d => v2 (ix3 (0 : Fin 1) j (lane hh d)))
          (fun j d => v4 (ix3 (0 : Fin 1) j (lane hh d))) i d := by
  refine (headV_apply _ _ _ i d).trans ?_
  have eq : rowsQ (extractStridedSlice S512x64 ![0, o] (Gen.k1_pay2 (F := Ideal) v0) hq)
      = fun i d => v0 (ix3 (0 : Fin 1) i (lane hh d)) :=
    funext fun i => funext fun d => q_window v0 o hq i d (lane hh d) (by show hh.val * 64 + d.val = o + d.val; omega)
  have ek : rowsK (extractStridedSlice S2048x64 ![0, o] (Gen.k1_pay3 (F := Ideal) v2) hk)
      = fun j d => v2 (ix3 (0 : Fin 1) j (lane hh d)) :=
    funext fun j => funext fun d => k_window v2 o hk j d (lane hh d) (by show hh.val * 64 + d.val = o + d.val; omega)
  have ev : rowsK (extractStridedSlice S2048x64 ![0, o] (Gen.k1_pay4 (F := Ideal) v4) hk)
      = fun j d => v4 (ix3 (0 : Fin 1) j (lane hh d)) :=
    funext fun j => funext fun d => v_window v4 o hk j d (lane hh d) (by show hh.val * 64 + d.val = o + d.val; omega)
  rw [eq, ek, ev]

/-! ## The stored block -/

/-- The stored block is the two heads' chains side by side along the lanes, as one [1, 512, 128] block. -/
theorem k1_pay1_eq (v0 : Vec Ideal S1x512x128 .bf16) (v2 v4 : Vec Ideal S1x2048x128 .bf16) :
    Gen.k1_pay1 (F := Ideal) (Gen.k1_pay5 v0 v2 v4) (Gen.k1_pay6 v4) (Gen.k1_pay7 v0 v2)
      = shapeCast S1x512x128 (truncf .bf16 (concatenate S512x128 1
          [⟨S512x64, headV (extractStridedSlice S512x64 ![0, 0] (Gen.k1_pay2 v0) slices_S512x128_o0_0_S512x64)
              (extractStridedSlice S2048x64 ![0, 0] (Gen.k1_pay3 v2) slices_S2048x128_o0_0_S2048x64)
              (extractStridedSlice S2048x64 ![0, 0] (Gen.k1_pay4 v4) slices_S2048x128_o0_0_S2048x64)⟩,
           ⟨S512x64, headV (extractStridedSlice S512x64 ![0, 64] (Gen.k1_pay2 v0) slices_S512x128_o0_64_S512x64)
              (extractStridedSlice S2048x64 ![0, 64] (Gen.k1_pay3 v2) slices_S2048x128_o0_64_S2048x64)
              (extractStridedSlice S2048x64 ![0, 64] (Gen.k1_pay4 v4) slices_S2048x128_o0_64_S2048x64)⟩]
          concatenates_S512x64_S512x64_S512x128_d1) bitsLt_bf16_f32) shapeCasts_S512x128_S1x512x128 := rfl

/-- The attention step's stored block at (0, i, hh · 64 + d): head `hh` of the step at row `i`, lane `d`. -/
theorem pay1_lane (v0 : Vec Ideal S1x512x128 .bf16) (v2 v4 : Vec Ideal S1x2048x128 .bf16)
    (i : Fin 512) (hh : Fin 2) (d : Fin 64) :
    Gen.k1_pay1 (F := Ideal) (Gen.k1_pay5 v0 v2 v4) (Gen.k1_pay6 v4) (Gen.k1_pay7 v0 v2) (ix3 (0 : Fin 1) i (lane hh d))
      = Cert.Spec.head (fun i d => v0 (ix3 (0 : Fin 1) i (lane hh d))) (fun j d => v2 (ix3 (0 : Fin 1) j (lane hh d)))
          (fun j d => v4 (ix3 (0 : Fin 1) j (lane hh d))) i d := by
  rw [k1_pay1_eq]
  refine (shapeCast_ab_1ab_apply _ shapeCasts_S512x128_S1x512x128 (0 : Fin 1) i (lane hh d)).trans ?_
  refine (truncf_apply _ bitsLt_bf16_f32 _).trans ?_
  match hh with
  | ⟨0, h0⟩ =>
    refine (concatenate_pair_apply_left 1 _ _ concatenates_S512x64_S512x64_S512x128_d1 (ix2 i (lane ⟨0, h0⟩ d)) rfl (ix2 i d) (fun b => ?_)).trans ?_
    · match b with
      | ⟨0, _⟩ => rfl
      | ⟨1, _⟩ => show d.val = 0 * 64 + d.val; omega
    · exact headV_window v0 v2 v4 ⟨0, h0⟩ 0 rfl _ _ i d
  | ⟨1, h1⟩ =>
    refine (concatenate_pair_apply_right 1 _ _ concatenates_S512x64_S512x64_S512x128_d1 (ix2 i (lane ⟨1, h1⟩ d)) rfl rfl (ix2 i d) (fun b hb => ?_) ?_).trans ?_
    · match b with
      | ⟨0, _⟩ => rfl
      | ⟨1, _⟩ => exact absurd rfl hb
    · show d.val + 64 = 1 * 64 + d.val; omega
    · exact headV_window v0 v2 v4 ⟨1, h1⟩ 64 rfl _ _ i d

/-- The same with the lane written out. -/
theorem pay1_apply (v0 : Vec Ideal S1x512x128 .bf16) (v2 v4 : Vec Ideal S1x2048x128 .bf16)
    (i : Fin 512) (hh : Fin 2) (d : Fin 64) :
    Gen.k1_pay1 (F := Ideal) (Gen.k1_pay5 v0 v2 v4) (Gen.k1_pay6 v4) (Gen.k1_pay7 v0 v2)
        (ix3 (0 : Fin 1) i ⟨hh.val * 64 + d.val, by omega⟩)
      = Cert.Spec.head (fun i d => v0 (ix3 (0 : Fin 1) i ⟨hh.val * 64 + d.val, by omega⟩))
          (fun j d => v2 (ix3 (0 : Fin 1) j ⟨hh.val * 64 + d.val, by omega⟩))
          (fun j d => v4 (ix3 (0 : Fin 1) j ⟨hh.val * 64 + d.val, by omega⟩)) i d :=
  pay1_lane v0 v2 v4 i hh d

end Cert.KernelIdeal.PayValue

end
-- ==== Proof.KI.Arr1.lean ====
/-
  The second region as one array: after its 128 grid points the attention array holds, at batch b, row i and
  column 64 h + d, head h of batch b attending at row i, lane d — the head specification on the projected rows'
  columns of head h (queries, keys and values are the three column ranges of the projected array). A grid point
  (batch, head pair, row tile) writes 512 rows and 128 columns (two heads side by side), computed from the same
  512 rows of the queries' columns of that pair and all 2048 rows of its keys' and values' columns; the 128
  blocks cover the array.
-/
import proofs.«121129_j18940805776011_2_alg».proof.Proof.KI.Body1
import proofs.«121129_j18940805776011_2_alg».proof.Proof.Pay1
import Idealize.ShloMosaic.Lib.Pipeline.Value
import Idealize.ShloMosaic.Lib.ValueIdx

set_option maxRecDepth 16384

noncomputable section

namespace Cert.KernelIdeal.ArrValue.Attn

open Cert.KernelIdeal Cert.KernelIdeal.Gen Cert.KernelIdeal.Frm Cert.KernelIdeal.PayValue
open Idealize.ShloMosaic Idealize.ShloMosaic.TcCoe Idealize.ShloMosaic.ValueIdx Idealize.SL.Sem
open Idealize.ShloMosaic.Pipeline (Dat)

/-! ## The head specification depends on one query row -/

/-- Row `i` of a head's output reads only row `i` of the queries: two query families, of any numbers of rows,
    that agree at rows `i` and `i'` give the same output there. -/
theorem head_row_congr {n n' : Nat} (q : Fin n → Fin 64 → EReal) (q' : Fin n' → Fin 64 → EReal)
    (k v : Fin 2048 → Fin 64 → EReal) (i : Fin n) (i' : Fin n') (h : q i = q' i') (d : Fin 64) :
    Cert.Spec.head q k v i d = Cert.Spec.head q' k v i' d := by
  have hs : ∀ j, Cert.Spec.score q k i j = Cert.Spec.score q' k i' j := fun j => by
    unfold Cert.Spec.score; rw [h]
  have hm : Cert.Spec.rowMax q k i = Cert.Spec.rowMax q' k i' := by
    unfold Cert.Spec.rowMax; simp only [hs]
  have he : ∀ j, Cert.Spec.expo q k i j = Cert.Spec.expo q' k i' j := fun j => by
    unfold Cert.Spec.expo; rw [hs, hm]
  have hsum : Cert.Spec.rowSum q k i = Cert.Spec.rowSum q' k i' := by
    unfold Cert.Spec.rowSum; simp only [he]
  unfold Cert.Spec.head
  simp only [he, hsum]

/-- The same with the keys, the values and the lane replaced by equal ones. -/
theorem head_congr {n n' : Nat} (q : Fin n → Fin 64 → EReal) (q' : Fin n' → Fin 64 → EReal)
    (k k' v v' : Fin 2048 → Fin 64 → EReal) (i : Fin n) (i' : Fin n') (d d' : Fin 64)
    (hq : q i = q' i') (hk : k = k') (hv : v = v') (hd : d = d') :
    Cert.Spec.head q k v i d = Cert.Spec.head q' k' v' i' d' := by
  subst hk; subst hv; subst hd
  exact head_row_congr q q' k v i i' hq d

/-! ## The array function -/

/-- Head `h` of batch `b` attending over the projected array `A`: row `i`, lane `d`. -/
def headOf (A : S4x2048x3072.Idx → EReal) (b : Fin 4) (i : Fin 2048) (h : Fin 16) (d : Fin 64) : EReal :=
  Cert.Spec.head (fun i d => A (ix3 b i (Cert.Spec.col 0 h d))) (fun j d => A (ix3 b j (Cert.Spec.col 1 h d)))
    (fun j d => A (ix3 b j (Cert.Spec.col 2 h d))) i d

/-- What the attention array ends holding, as a function of the projected array: column `e` is head `e / 64`,
    lane `e % 64`. -/
def arrOf (A : S4x2048x3072.Idx → EReal) : S4x2048x1024.Idx → EReal := fun x =>
  headOf A ⟨(x 0).val, (x 0).isLt⟩ ⟨(x 1).val, (x 1).isLt⟩
    ⟨(x 2).val / 64, Nat.div_lt_of_lt_mul (x 2).isLt⟩ ⟨(x 2).val % 64, Nat.mod_lt _ (by decide)⟩

/-! ## One grid point, over variables -/

/-- The stored block of a grid point at batch `b`, row tile `tt`, head pair `hp`, read at its entry
    (row p, lane hh · 64 + d): the array function at the entry under it, given that the three loaded blocks are
    the rows and columns of the projected array the point's rectangles name. -/
theorem stored_of (A : S4x2048x3072.Idx → EReal) (X0 : Vec Ideal S1x512x128 .bf16) (X1 X2 : Vec Ideal S1x2048x128 .bf16)
    (b : Fin 4) (tt hp : Nat)
    (hX0 : ∀ (p : Fin 512) (l : Fin 128) (r : Fin 2048) (e : Fin 3072), r.val = tt * 512 + p.val → e.val = hp * 128 + l.val →
      X0 (ix3 (0 : Fin 1) p l) = A (ix3 b r e))
    (hX1 : ∀ (j : Fin 2048) (l : Fin 128) (e : Fin 3072), e.val = (8 + hp) * 128 + l.val →
      X1 (ix3 (0 : Fin 1) j l) = A (ix3 b j e))
    (hX2 : ∀ (j : Fin 2048) (l : Fin 128) (e : Fin 3072), e.val = (16 + hp) * 128 + l.val →
      X2 (ix3 (0 : Fin 1) j l) = A (ix3 b j e))
    (hhp : hp < 8) (p : Fin 512) (hh : Fin 2) (d : Fin 64) (x : S4x2048x1024.Idx)
    (h0 : (x 0).val = b.val) (h1 : (x 1).val = tt * 512 + p.val) (h2 : (x 2).val = hp * 128 + (hh.val * 64 + d.val)) :
    k1_pay1 (F := Ideal) (k1_pay5 X0 X1 X2) (k1_pay6 X2) (k1_pay7 X0 X1) (ix3 (0 : Fin 1) p (lane hh d)) = arrOf A x := by
  refine (pay1_lane X0 X1 X2 p hh d).trans ?_
  have hb : (⟨(x 0).val, (x 0).isLt⟩ : Fin 4) = b := Fin.ext h0
  have hhv : (x 2).val / 64 = 2 * hp + hh.val := by have := hh.isLt; have := d.isLt; omega
  have hdv : (x 2).val % 64 = d.val := by have := hh.isLt; have := d.isLt; omega
  unfold arrOf headOf
  rw [hb]
  refine head_congr _ _ _ _ _ _ p ⟨(x 1).val, (x 1).isLt⟩ d _ ?_ ?_ ?_ (Fin.ext hdv.symm)
  · funext d'
    refine hX0 p (lane hh d') _ _ h1 ?_
    show 0 * 1024 + (x 2).val / 64 * 64 + d'.val = hp * 128 + (hh.val * 64 + d'.val)
    omega
  · funext j d'
    refine hX1 j (lane hh d') _ ?_
    show 1 * 1024 + (x 2).val / 64 * 64 + d'.val = (8 + hp) * 128 + (hh.val * 64 + d'.val)
    omega
  · funext j d'
    refine hX2 j (lane hh d') _ ?_
    show 2 * 1024 + (x 2).val / 64 * 64 + d'.val = (16 + hp) * 128 + (hh.val * 64 + d'.val)
    omega

/-! ## The grid -/

variable (V : (c : Dev nD) → (b : Ref sig .tc) → Buf (Elt Ideal) ((c : Thread nD τ).loc b))

theorem zeroOff3 : (![0, 0, 0] : Fin 3 → Nat) = fun _ => 0 := funext fun a => by fin_cases a <;> rfl

/-- The projected array the region reads and the attention array after it, as functions of literal index types. -/
abbrev arrP (c : Dev nD) : S4x2048x3072.Idx → EReal := V c main_v5
abbrev arrOut1 (c : Dev nD) : S4x2048x1024.Idx → EReal := (dat1 (F := Ideal) V c).arrAt 3 cfg1.N

/-- The block indices over the grid. Point `t` is batch `t / 32`, head pair `t / 4 % 8`, row tile `t % 4`: the query and
    the output windows take block (batch, row tile, head pair), the key and value windows block (batch, 0, 8 + head
    pair) and (batch, 0, 16 + head pair). -/
theorem blockIdx1 : ∀ t : Fin cfg1.N,
    win1_0.index t (0 : Fin 3) = t.val / 32 ∧ win1_0.index t (1 : Fin 3) = t.val % 4 ∧ win1_0.index t (2 : Fin 3) = t.val / 4 % 8
    ∧ win1_1.index t (0 : Fin 3) = t.val / 32 ∧ win1_1.index t (1 : Fin 3) = 0 ∧ win1_1.index t (2 : Fin 3) = 8 + t.val / 4 % 8
    ∧ win1_2.index t (0 : Fin 3) = t.val / 32 ∧ win1_2.index t (1 : Fin 3) = 0 ∧ win1_2.index t (2 : Fin 3) = 16 + t.val / 4 % 8
    ∧ win1_3.index t (0 : Fin 3) = t.val / 32 ∧ win1_3.index t (1 : Fin 3) = t.val % 4 ∧ win1_3.index t (2 : Fin 3) = t.val / 4 % 8 :=
  (by decide +kernel : ∀ t : Fin grid1.N, _)

theorem point_lt1 (t : Fin cfg1.N) : t.val < 128 := lt_of_lt_of_eq t.isLt N_1

/-- The query block at point `t`: rows 512 (t % 4) … of batch t / 32, columns 128 (t / 4 % 8) … of the projected array. -/
theorem queryBlock (c : Dev nD) (t : Fin cfg1.N) (b : Fin 4) (hb : b.val = t.val / 32)
    (p : Fin 512) (l : Fin 128) (r : Fin 2048) (e : Fin 3072)
    (hr : r.val = t.val % 4 * 512 + p.val) (he : e.val = t.val / 4 % 8 * 128 + l.val) :
    (iblk1 V c 0 t : Vec Ideal S1x512x128 .bf16) (ix3 (0 : Fin 1) p l) = arrP V c (ix3 b r e) := by
  obtain ⟨e0, e1, e2, -⟩ := blockIdx1 t
  unfold iblk1
  rw [View.read_apply]
  show arrP V c _ = _
  congr 1
  funext a; apply Fin.ext
  match a with
  | ⟨0, _⟩ => show win1_0.index t (0 : Fin 3) * 1 + 1 * 0 = b.val; rw [e0, hb]; omega
  | ⟨1, _⟩ => show win1_0.index t (1 : Fin 3) * 512 + 1 * p.val = r.val; rw [e1, hr]; omega
  | ⟨2, _⟩ => show win1_0.index t (2 : Fin 3) * 128 + 1 * l.val = e.val; rw [e2, he]; omega

/-- The key block at point `t`: all rows of batch t / 32, columns 128 (8 + t / 4 % 8) … of the projected array. -/
theorem keyBlock (c : Dev nD) (t : Fin cfg1.N) (b : Fin 4) (hb : b.val = t.val / 32)
    (j : Fin 2048) (l : Fin 128) (e : Fin 3072) (he : e.val = (8 + t.val / 4 % 8) * 128 + l.val) :
    (iblk1 V c 1 t : Vec Ideal S1x2048x128 .bf16) (ix3 (0 : Fin 1) j l) = arrP V c (ix3 b j e) := by
  obtain ⟨-, -, -, e0, e1, e2, -⟩ := blockIdx1 t
  unfold iblk1
  rw [View.read_apply]
  show arrP V c _ = _
  congr 1
  funext a; apply Fin.ext
  match a with
  | ⟨0, _⟩ => show win1_1.index t (0 : Fin 3) * 1 + 1 * 0 = b.val; rw [e0, hb]; omega
  | ⟨1, _⟩ => show win1_1.index t (1 : Fin 3) * 2048 + 1 * j.val = j.val; rw [e1]; omega
  | ⟨2, _⟩ => show win1_1.index t (2 : Fin 3) * 128 + 1 * l.val = e.val; rw [e2, he]; omega

/-- The value block at point `t`: all rows of batch t / 32, columns 128 (16 + t / 4 % 8) … of the projected array. -/
theorem valueBlock (c : Dev nD) (t : Fin cfg1.N) (b : Fin 4) (hb : b.val = t.val / 32)
    (j : Fin 2048) (l : Fin 128) (e : Fin 3072) (he : e.val = (16 + t.val / 4 % 8) * 128 + l.val) :
    (iblk1 V c 2 t : Vec Ideal S1x2048x128 .bf16) (ix3 (0 : Fin 1) j l) = arrP V c (ix3 b j e) := by
  obtain ⟨-, -, -, -, -, -, e0, e1, e2, -⟩ := blockIdx1 t
  unfold iblk1
  rw [View.read_apply]
  show arrP V c _ = _
  congr 1
  funext a; apply Fin.ext
  match a with
  | ⟨0, _⟩ => show win1_2.index t (0 : Fin 3) * 1 + 1 * 0 = b.val; rw [e0, hb]; omega
  | ⟨1, _⟩ => show win1_2.index t (1 : Fin 3) * 2048 + 1 * j.val = j.val; rw [e1]; omega
  | ⟨2, _⟩ => show win1_2.index t (2 : Fin 3) * 128 + 1 * l.val = e.val; rw [e2, he]; omega

/-- What the attention array ends holding, as a function of the array the region reads. -/
def G1 (c : Dev nD) : S4x2048x1024.Idx → EReal := arrOf (arrP V c)

/-- The stored block of point `t` at its entry `j` is the array function at the entry under it. -/
theorem stored1 (c : Dev nD) (t : Fin cfg1.N) (j : S1x512x128.Idx) (x : S4x2048x1024.Idx)
    (h0 : (x 0).val = t.val / 32) (h1 : (x 1).val = t.val % 4 * 512 + (j 1).val)
    (h2 : (x 2).val = t.val / 4 % 8 * 128 + (j 2).val) :
    k1_pay1 (F := Ideal) (k1_pay5 (iblk1 V c 0 t) (iblk1 V c 1 t) (iblk1 V c 2 t)) (k1_pay6 (iblk1 V c 2 t))
      (k1_pay7 (iblk1 V c 0 t) (iblk1 V c 1 t)) j = G1 V c x := by
  have ht := point_lt1 t
  obtain ⟨u, p, l, rfl⟩ : ∃ (u : Fin 1) (p : Fin 512) (l : Fin 128), j = ix3 u p l := ⟨j 0, j 1, j 2, eq_ix3 j⟩
  obtain rfl : u = 0 := Fin.ext (by omega)
  have hl : l = lane ⟨l.val / 64, by omega⟩ ⟨l.val % 64, by omega⟩ := Fin.ext (by show l.val = l.val / 64 * 64 + l.val % 64; omega)
  rw [hl]
  refine stored_of (arrP V c) (iblk1 V c 0 t) (iblk1 V c 1 t) (iblk1 V c 2 t) ⟨t.val / 32, by omega⟩ (t.val % 4) (t.val / 4 % 8)
    (fun p l r e hr he => queryBlock V c t _ rfl p l r e hr he)
    (fun j l e he => keyBlock V c t _ rfl j l e he)
    (fun j l e he => valueBlock V c t _ rfl j l e he)
    (by omega) p _ _ x h0 h1 ?_
  show (x 2).val = t.val / 4 % 8 * 128 + (l.val / 64 * 64 + l.val % 64)
  have : (x 2).val = t.val / 4 % 8 * 128 + l.val := h2
  omega

/-- What point `t` writes back is block `t` of the array function. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero zeroOff3]
  simp only [View.ld_unit_zero (S := S1x512x128) zeroOff3, View.ld_unit_zero (S := S1x2048x128) zeroOff3]
  obtain ⟨-, -, -, -, -, -, -, -, -, e0, e1, e2⟩ := blockIdx1 t
  funext j
  show k1_pay1 (F := Ideal) (k1_pay5 (iblk1 V c 0 t) (iblk1 V c 1 t) (iblk1 V c 2 t)) (k1_pay6 (iblk1 V c 2 t))
      (k1_pay7 (iblk1 V c 0 t) (iblk1 V c 1 t)) j = G1 V c (((cfg1.win 3).blk t).view.emb j)
  have hj0 : (j 0).val < 1 := (j 0).isLt
  refine stored1 V c t j _ ?_ ?_ ?_
  · show win1_3.index t (0 : Fin 3) * 1 + 1 * (j 0).val = t.val / 32; rw [e0]; omega
  · show win1_3.index t (1 : Fin 3) * 512 + 1 * (j 1).val = t.val % 4 * 512 + (j 1).val; rw [e1]; omega
  · show win1_3.index t (2 : Fin 3) * 128 + 1 * (j 2).val = t.val / 4 % 8 * 128 + (j 2).val; rw [e2]; omega

/-- An index of the array is in point `t`'s block iff each coordinate is in the block's range on its axis. -/
theorem mem_blk1 (t : Fin cfg1.N) (x : S4x2048x1024.Idx) :
    x ∈ ((cfg1.win 3).blk t).view.set ↔ ∀ a : Fin 3, win1_3.index t a * S1x512x128.size a ≤ (x a).val
      ∧ (x a).val < win1_3.index t a * S1x512x128.size a + S1x512x128.size a := by
  show x ∈ ((View.whole main_v6).slice (win1_3.rect t)).set ↔ _
  rw [View.set_slice_whole, Rect.mem_set_unit]
  exact Iff.rfl

/-- Entry (b, i, e) is written by the point of batch b, head pair e / 128, row tile i / 512. -/
theorem cover1 (x : S4x2048x1024.Idx) : ∃ t : Fin cfg1.N, (cfg1.win 3).flush t = true ∧ x ∈ ((cfg1.win 3).blk t).view.set := by
  have hx0 : (x 0).val < 4 := (x 0).isLt
  have hx1 : (x 1).val < 2048 := (x 1).isLt
  have hx2 : (x 2).val < 1024 := (x 2).isLt
  obtain ⟨t, ht⟩ : ∃ t : Fin cfg1.N, t.val = (x 0).val * 32 + (x 2).val / 128 * 4 + (x 1).val / 512 :=
    ⟨⟨(x 0).val * 32 + (x 2).val / 128 * 4 + (x 1).val / 512,
      lt_of_lt_of_eq (by omega : (x 0).val * 32 + (x 2).val / 128 * 4 + (x 1).val / 512 < 128) N_1.symm⟩, rfl⟩
  obtain ⟨-, -, -, -, -, -, -, -, -, e0, e1, e2⟩ := blockIdx1 t
  refine ⟨t, flush1_3 t, ?_⟩
  rw [mem_blk1]
  intro a
  match a with
  | ⟨0, _⟩ => show win1_3.index t (0 : Fin 3) * 1 ≤ (x 0).val ∧ (x 0).val < win1_3.index t (0 : Fin 3) * 1 + 1; rw [e0, ht]; omega
  | ⟨1, _⟩ => show win1_3.index t (1 : Fin 3) * 512 ≤ (x 1).val ∧ (x 1).val < win1_3.index t (1 : Fin 3) * 512 + 512; rw [e1, ht]; omega
  | ⟨2, _⟩ => show win1_3.index t (2 : Fin 3) * 128 ≤ (x 2).val ∧ (x 2).val < win1_3.index t (2 : Fin 3) * 128 + 128; rw [e2, ht]; omega

/-- The attention array after the region is the array function. -/
theorem arr1_eq (c : Dev nD) : (dat1 (F := Ideal) V c).arrAt 3 cfg1.N = G1 V c :=
  (dat1 (F := Ideal) V c).arrAt_eq_of_cover 3 (G1 V c) (fun t _ => flushed1_eq V c t) cover1

/-- The attention array after the region, entry by entry: batch `b`, row `i`, head `h`, lane `d`. -/
theorem arr1 (c : Dev nD) (b : Fin 4) (h : Fin 16) (i : Fin 2048) (d : Fin 64) :
    arrOut1 V c (ix3 b i ⟨h.val * 64 + d.val, by omega⟩)
      = Cert.Spec.head (fun i d => arrP V c (ix3 b i (Cert.Spec.col 0 h d))) (fun j d => arrP V c (ix3 b j (Cert.Spec.col 1 h d)))
          (fun j d => arrP V c (ix3 b j (Cert.Spec.col 2 h d))) i d := by
  show ((dat1 (F := Ideal) V c).arrAt 3 cfg1.N : S4x2048x1024.Idx → EReal) (ix3 b i ⟨h.val * 64 + d.val, by omega⟩) = _
  rw [arr1_eq]
  show headOf (arrP V c) b i ⟨(h.val * 64 + d.val) / 64, _⟩ ⟨(h.val * 64 + d.val) % 64, _⟩ = headOf (arrP V c) b i h d
  exact congrArg₂ (headOf (arrP V c) b i) (Fin.ext (by show (h.val * 64 + d.val) / 64 = h.val; omega))
    (Fin.ext (by show (h.val * 64 + d.val) % 64 = d.val; omega))

end Cert.KernelIdeal.ArrValue.Attn

end
-- ==== Proof.Pay2.lean ====
/-
  The output projection's block, read at an entry: row p of the merged head outputs against row e of the
  weight, summed over the 1024 shared columns, plus entry e of the bias row (the one row broadcast over
  the 512 rows). At the extended reals the matrix product into the zero accumulator is the plain sum.
-/
import proofs.«121129_j18940805776011_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem

/-! The operand indices of the product: the left operand is read at (row, k), the right at (column, k). -/

theorem lhs2_non (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem lhs2_con (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
theorem rhs2_non (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem rhs2_con (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- The product of a 512 × 1024 block with the transpose of a 1024 × 1024 one, into zero, at entry (p, e). -/
theorem matmul2_apply (x : FVec Ideal S512x1024 .bf16) (w : FVec Ideal S1024x1024 .bf16) (p : Fin 512) (e : Fin 1024) :
    matmul dot_S512x1024_S1024x1024_S512x1024_1_1_0_0_n_n none x w (constant S512x1024 .f32 0x00000000#32) (ix2 p e)
      = ∑ c : Fin 1024, x (ix2 p c) * w (ix2 e c) := by
  refine (Ideal.matmul_constant_zero_apply dot_S512x1024_S1024x1024_S512x1024_1_1_0_0_n_n none x w (ix2 p e)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p e) ((contrEquiv1 dot_S512x1024_S1024x1024_S512x1024_1_1_0_0_n_n 1024 rfl rfl).symm k) = ix2 p k :=
    funext fun a => Fin.ext (by
      match a with
      | ⟨0, _⟩ => exact lhs2_non _ _
      | ⟨1, _⟩ => exact (lhs2_con _ _).trans hk)
  have er : dot_S512x1024_S1024x1024_S512x1024_1_1_0_0_n_n.rhsIdx (ix2 p e) ((contrEquiv1 dot_S512x1024_S1024x1024_S512x1024_1_1_0_0_n_n 1024 rfl rfl).symm k) = ix2 e k :=
    funext fun a => Fin.ext (by
      match a with
      | ⟨0, _⟩ => exact rhs2_non _ _
      | ⟨1, _⟩ => exact (rhs2_con _ _).trans hk)
  rw [el, er]

/-- The output projection's stored block at entry (p, e). -/
theorem pay2_apply (v0 : Vec Ideal S512x1024 .bf16) (v2 : Vec Ideal S1024x1024 .bf16) (v5 : Vec Ideal S1x1024 .f32)
    (p : Fin 512) (e : Fin 1024) :
    Gen.k2_pay1 (F := Ideal) v0 v2 v5 (ix2 p e)
      = (∑ c : Fin 1024, v0 (ix2 p c) * v2 (ix2 e c)) + v5 (ix2 (0 : Fin 1) e) := by
  unfold Gen.k2_pay1
  rw [shapeCast_self, shapeCast_self, shapeCast_self]
  refine (addf_apply _ _ (ix2 p e)).trans ?_
  rw [matmul2_apply v0 v2 p e, broadcastTo_1b_ab_apply v5 broadcasts_S1x1024_S512x1024 p e]

end Cert.KernelIdeal.PayValue

end
-- ==== Proof.KI.Arr2.lean ====
/-
  The third region as one array: after its sixteen grid points, the result array holds, at row r and column e,
  row r of the merged head outputs against row e of the output weights, summed over the 1024 shared columns, plus
  entry e of the bias row. Each grid point writes 512 consecutive rows, computed from the same 512 rows of the
  merged array, the whole weight array and the bias row; the sixteen row blocks cover the array.
-/
import proofs.«121129_j18940805776011_2_alg».proof.Proof.KI.Body2
import proofs.«121129_j18940805776011_2_alg».proof.Proof.Pay2
import Idealize.ShloMosaic.Lib.Pipeline.Value
import Idealize.ShloMosaic.Lib.ValueIdx

set_option maxRecDepth 16384

noncomputable section

namespace Cert.KernelIdeal.ArrValue

open Cert.KernelIdeal Cert.KernelIdeal.Gen Cert.KernelIdeal.Frm Cert.KernelIdeal.PayValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- Rows against rows plus a row: entry (r, e) is row r of `X` times row e of `W`, summed over the shared columns,
    plus entry e of the one row `B`. -/
def rowsByRowsPlus2 (X : S8192x1024.Idx → EReal) (W : S1024x1024.Idx → EReal) (B : S1x1024.Idx → EReal) : S8192x1024.Idx → EReal :=
  fun i => (∑ k : Fin 1024, X (ix2 (⟨(i 0).val, (i 0).isLt⟩ : Fin 8192) k) * W (ix2 (⟨(i 1).val, (i 1).isLt⟩ : Fin 1024) k))
    + B (ix2 (0 : Fin 1) (⟨(i 1).val, (i 1).isLt⟩ : Fin 1024))

/-- The merged rows, the output weights, the bias row, and the result array after the region, as functions of literal index types. -/
abbrev arrX2 (c : Dev nD) : S8192x1024.Idx → EReal := V c main_v7
abbrev arrW2 (c : Dev nD) : S1024x1024.Idx → EReal := V c main_v2
abbrev arrB2 (c : Dev nD) : S1x1024.Idx → EReal := V c main_v8
abbrev arrOut2 (c : Dev nD) : S8192x1024.Idx → EReal := (dat2 (F := Ideal) V c).arrAt 3 cfg2.N

/-- What the result array ends holding, as a function of the three arrays the region reads. -/
def G2 (c : Dev nD) : S8192x1024.Idx → EReal := rowsByRowsPlus2 (arrX2 V c) (arrW2 V c) (arrB2 V c)

/-- The block indices over the grid: point `t` takes row block `t` of the merged rows and of the output, and the one
    block of the weights and of the bias row. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` is rows 512 t … 512 t + 511 of the merged array. -/
theorem inRows2 (c : Dev nD) (t : Fin cfg2.N) (p : Fin 512) (k : Fin 1024) (r : Fin 8192) (hr : r.val = t.val * 512 + p.val) :
    (iblk2 V c 0 t : Vec Ideal S512x1024 .bf16) (ix2 p k) = arrX2 V c (ix2 r k) := by
  obtain ⟨e0, e1, -, -, -, -, -, -⟩ := blockIdx2 t
  unfold iblk2
  rw [View.read_apply]
  show arrX2 V c _ = _
  congr 1
  funext a; apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The weight block at every point is the whole weight array. -/
theorem inWeights2 (c : Dev nD) (t : Fin cfg2.N) (e : Fin 1024) (k : Fin 1024) :
    (iblk2 V c 1 t : Vec Ideal S1024x1024 .bf16) (ix2 e k) = arrW2 V c (ix2 e k) := by
  obtain ⟨-, -, e0, e1, -, -, -, -⟩ := blockIdx2 t
  unfold iblk2
  rw [View.read_apply]
  show arrW2 V c _ = _
  congr 1
  funext a; apply Fin.ext
  match a with
  | ⟨0, _⟩ => show win2_1.index t (0 : Fin 2) * 1024 + 1 * e.val = e.val; rw [e0]; omega
  | ⟨1, _⟩ => show win2_1.index t (1 : Fin 2) * 1024 + 1 * k.val = k.val; rw [e1]; omega

/-- The bias block at every point is the whole bias row. -/
theorem inBias2 (c : Dev nD) (t : Fin cfg2.N) (z : Fin 1) (e : Fin 1024) :
    (iblk2 V c 2 t : Vec Ideal S1x1024 .f32) (ix2 z e) = arrB2 V c (ix2 z e) := by
  obtain ⟨-, -, -, -, e0, e1, -, -⟩ := blockIdx2 t
  unfold iblk2
  rw [View.read_apply]
  show arrB2 V c _ = _
  congr 1
  funext a; apply Fin.ext
  match a with
  | ⟨0, _⟩ => show win2_2.index t (0 : Fin 2) * 1 + 1 * z.val = z.val; rw [e0]; omega
  | ⟨1, _⟩ => show win2_2.index t (1 : Fin 2) * 1024 + 1 * e.val = e.val; rw [e1]; omega

/-- The stored block of point `t` at its entry `j` is the array function at the entry `i` of row 512 t + (row of j). -/
theorem stored2 (c : Dev nD) (t : Fin cfg2.N) (j : S512x1024.Idx) (i : S8192x1024.Idx)
    (h0 : (i 0).val = t.val * 512 + (j 0).val) (h1 : (i 1).val = (j 1).val) :
    k2_pay1 (F := Ideal) (iblk2 V c 0 t) (iblk2 V c 1 t) (iblk2 V c 2 t) j = G2 V c i := by
  obtain ⟨p, e, rfl⟩ : ∃ (p : Fin 512) (e : Fin 1024), j = ix2 p e := ⟨j 0, j 1, eq_ix2 j⟩
  refine (pay2_apply (iblk2 V c 0 t) (iblk2 V c 1 t) (iblk2 V c 2 t) p e).trans ?_
  unfold G2 rowsByRowsPlus2
  have he : (⟨(i 1).val, (i 1).isLt⟩ : Fin 1024) = e := Fin.ext h1
  rw [he, inBias2 V c t 0 e]
  congr 1
  refine Finset.sum_congr rfl fun k _ => ?_
  rw [inRows2 V c t p k ⟨(i 0).val, (i 0).isLt⟩ h0, inWeights2 V c t e k]

/-- What point `t` writes back is block `t` of the array function. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero zeroOff2]
  simp only [View.ld_unit_zero (S := S512x1024) zeroOff2, View.ld_unit_zero (S := S1024x1024) zeroOff2,
    View.ld_unit_zero (S := S1x1024) zeroOff2]
  obtain ⟨-, -, -, -, -, -, e0, e1⟩ := blockIdx2 t
  funext j
  show k2_pay1 (F := Ideal) (iblk2 V c 0 t) (iblk2 V c 1 t) (iblk2 V c 2 t) j = G2 V c (((cfg2.win 3).blk t).view.emb j)
  refine stored2 V c t j _ ?_ ?_
  · show win2_3.index t (0 : Fin 2) * 512 + 1 * (j 0).val = t.val * 512 + (j 0).val; rw [e0]; omega
  · show win2_3.index t (1 : Fin 2) * 1024 + 1 * (j 1).val = (j 1).val; rw [e1]; omega

/-- An index of the array is in point `t`'s block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v9).slice (win2_3.rect t)).set ↔ _
  rw [View.set_slice_whole, Rect.mem_set_unit]
  exact Iff.rfl

/-- Row `r` is written by point `r / 512`. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ : ∃ t : Fin cfg2.N, t.val = (i 0).val / 512 :=
    ⟨⟨(i 0).val / 512, lt_of_lt_of_eq (by omega : (i 0).val / 512 < 16) N_2.symm⟩, rfl⟩
  obtain ⟨-, -, -, -, -, -, e0, e1⟩ := blockIdx2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; rw [e0, ht]; omega
  | ⟨1, _⟩ => show win2_3.index t (1 : Fin 2) * 1024 ≤ (i 1).val ∧ (i 1).val < win2_3.index t (1 : Fin 2) * 1024 + 1024; rw [e1]; omega

/-- The result array after the region is the array function. -/
theorem arr2_eq (c : Dev nD) : (dat2 (F := Ideal) V c).arrAt 3 cfg2.N = G2 V c :=
  (dat2 (F := Ideal) V c).arrAt_eq_of_cover 3 (G2 V c) (fun t _ => flushed2_eq V c t) cover2

/-- The result array after the region, entry by entry. -/
theorem arr2 (c : Dev nD) (r : Fin 8192) (e : Fin 1024) :
    arrOut2 V c (ix2 r e) = (∑ k : Fin 1024, arrX2 V c (ix2 r k) * arrW2 V c (ix2 e k)) + arrB2 V c (ix2 (0 : Fin 1) e) := by
  show ((dat2 (F := Ideal) V c).arrAt 3 cfg2.N : S8192x1024.Idx → EReal) (ix2 r e) = _
  rw [arr2_eq]
  rfl

end Cert.KernelIdeal.ArrValue

end
-- ==== Proof.KI.Value.lean ====
/-
  The kernel program's result as the common specification. Entry (b, n, e) of the result is row b·2048 + n, column e
  of the third region's array: row n of batch b of the merged head outputs against row e of the output weights, plus
  the bias. The merged head outputs are the second region's array, which at column 64 h + d is head h attending over
  the projected rows; the projected rows are the first region's array, the input rows against the projection weights.
  The reshapes between the regions only regroup the two leading axes, and the casts are the identity at the exact
  instance; the weights and the bias reach their regions unchanged.
-/
import proofs.«121129_j18940805776011_2_alg».proof.Proof.KI.Glue
import proofs.«121129_j18940805776011_2_alg».proof.Proof.KI.Arr0
import proofs.«121129_j18940805776011_2_alg».proof.Proof.KI.Arr1
import proofs.«121129_j18940805776011_2_alg».proof.Proof.KI.Arr2
import proofs.«121129_j18940805776011_2_alg».proof.Proof.Spec

set_option maxRecDepth 16384

noncomputable section

namespace Cert.KernelIdeal.Glue

open Cert.KernelIdeal Cert.KernelIdeal.Gen Cert.KernelIdeal.Frm Cert.KernelIdeal.ArrValue Cert.KernelIdeal.ArrValue.Attn
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (c : Dev nD)

/-! ## The reshapes read at an entry: only the two leading axes are regrouped -/

theorem flatten1024_apply (y : S4x2048x1024.Idx → EReal) (b : Fin 4) (n : Fin 2048) (k : Fin 1024) :
    shapeCast S8192x1024 y shapeCasts_S4x2048x1024_S8192x1024 (ix2 (flat b n) k) = y (ix3 b n k) :=
  shapeCast_apply y shapeCasts_S4x2048x1024_S8192x1024 (ix2 (flat b n) k) (ix3 b n k) (by
    rewrite [Shape.rowMajor_val_three, Shape.rowMajor_val_two]
    show (b.val * 2048 + n.val) * 1024 + k.val = (b.val * 2048 + n.val) * 1024 + k.val; rfl)

theorem unflatten3072_apply (y : S8192x3072.Idx → EReal) (b : Fin 4) (n : Fin 2048) (k : Fin 3072) :
    shapeCast S4x2048x3072 y shapeCasts_S8192x3072_S4x2048x3072 (ix3 b n k) = y (ix2 (flat b n) k) :=
  shapeCast_apply y shapeCasts_S8192x3072_S4x2048x3072 (ix3 b n k) (ix2 (flat b n) k) (by
    rewrite [Shape.rowMajor_val_three, Shape.rowMajor_val_two]
    show (b.val * 2048 + n.val) * 3072 + k.val = (b.val * 2048 + n.val) * 3072 + k.val; rfl)

theorem unflatten1024_apply (y : S8192x1024.Idx → EReal) (b : Fin 4) (n : Fin 2048) (k : Fin 1024) :
    shapeCast S4x2048x1024 y shapeCasts_S8192x1024_S4x2048x1024 (ix3 b n k) = y (ix2 (flat b n) k) :=
  shapeCast_apply y shapeCasts_S8192x1024_S4x2048x1024 (ix3 b n k) (ix2 (flat b n) k) (by
    rewrite [Shape.rowMajor_val_three, Shape.rowMajor_val_two]
    show (b.val * 2048 + n.val) * 1024 + k.val = (b.val * 2048 + n.val) * 1024 + k.val; rfl)

theorem oneRow_apply (y : S1024.Idx → EReal) (e : Fin 1024) :
    shapeCast S1x1024 y shapeCasts_S1024_S1x1024 (ix2 (0 : Fin 1) e) = y (ix1 e) :=
  shapeCast_apply y shapeCasts_S1024_S1x1024 (ix2 (0 : Fin 1) e) (ix1 e) (by
    rewrite [Shape.rowMajor_val_one, Shape.rowMajor_val_two]
    show e.val = 0 * 1024 + e.val; omega)

/-! ## The launch arrays, as functions of literal index types -/

abbrev argX : S4x2048x1024.Idx → EReal := m ((c : Thread nD τ).loc main_arg0)
abbrev argW : S3072x1024.Idx → EReal := m ((c : Thread nD τ).loc main_arg1)
abbrev argWo : S1024x1024.Idx → EReal := m ((c : Thread nD τ).loc main_arg2)
abbrev argB : S1024.Idx → EReal := m ((c : Thread nD τ).loc main_arg3)

/-! ## The first region: the projected rows -/

/-- The first region's input rows are the launch input's rows, flattened. -/
theorem x_rows (b : Fin 4) (n : Fin 2048) (k : Fin 1024) :
    arrX0 (V1 m) c (ix2 (flat b n) k) = argX m c (ix3 b n k) := by
  refine (congrFun (v3_eq m c) (ix2 (flat b n) k)).trans ?_
  refine (flatten1024_apply _ b n k).trans ?_
  rfl

/-- The first region's weights are the launch projection weights. -/
theorem w_rows (e : Fin 3072) (k : Fin 1024) : arrW0 (V1 m) c (ix2 e k) = argW m c (ix2 e k) :=
  congrFun (v1_eq m c) (ix2 e k)

/-- The projected array is the specification's projection. -/
theorem proj_eq (b : Fin 4) (n : Fin 2048) (col : Fin 3072) :
    arrOut0 (V1 m) c (ix2 (flat b n) col) = Cert.Spec.proj (argX m c) (argW m c) b n col := by
  rw [arr0 (V1 m) c (flat b n) col]
  unfold Cert.Spec.proj
  refine Finset.sum_congr rfl fun k _ => ?_
  rw [x_rows, w_rows]

/-! ## The second region: the heads -/

/-- The second region reads the projected array, regrouped by batch. -/
theorem p_eq (b : Fin 4) (i : Fin 2048) (col : Fin 3072) :
    arrP (V3 m) c (ix3 b i col) = Cert.Spec.proj (argX m c) (argW m c) b i col := by
  refine (congrFun (v5_eq m c) (ix3 b i col)).trans ?_
  refine (unflatten3072_apply _ b i col).trans ?_
  refine (congrFun (W2_self m c) (ix2 (flat b i) col)).trans ?_
  exact proj_eq m c b i col

/-- The attention array at column k is the merged head outputs' column k. -/
theorem merged_eq (b : Fin 4) (n : Fin 2048) (k : Fin 1024) :
    arrOut1 (V3 m) c (ix3 b n k) = Cert.Spec.merged (argX m c) (argW m c) b n k := by
  have hk : (⟨(⟨k.val / 64, by omega⟩ : Fin 16).val * 64 + (⟨k.val % 64, by omega⟩ : Fin 64).val, by omega⟩ : Fin 1024) = k :=
    Fin.ext (by show k.val / 64 * 64 + k.val % 64 = k.val; omega)
  have h1 := arr1 (V3 m) c b ⟨k.val / 64, by omega⟩ n ⟨k.val % 64, by omega⟩
  rw [hk] at h1
  refine h1.trans ?_
  unfold Cert.Spec.merged Cert.Spec.attn
  simp only [p_eq m c]

/-! ## The third region: the output projection and the bias -/

/-- The third region's input rows are the attention array's rows, flattened. -/
theorem a_rows (b : Fin 4) (n : Fin 2048) (k : Fin 1024) :
    arrX2 (V5 m) c (ix2 (flat b n) k) = Cert.Spec.merged (argX m c) (argW m c) b n k := by
  refine (congrFun (v7_eq m c) (ix2 (flat b n) k)).trans ?_
  refine (flatten1024_apply _ b n k).trans ?_
  refine (congrFun (W4_self m c) (ix3 b n k)).trans ?_
  exact merged_eq m c b n k

/-- The output weights reach the third region unchanged. -/
theorem wo_eq : (V5 m c main_v2 : S1024x1024.Idx → EReal) = argWo m c := by
  show StableHlo.after hostOps2 (W4 m c) (Proc.devRef .tc main_v2) = _
  after_results
  rw [W4_of_ne m c main_v2 (by decide)]
  show StableHlo.after hostOps1 (W2 m c) (Proc.devRef .tc main_v2) = _
  after_results
  rw [W2_of_ne m c main_v2 (by decide)]
  exact (v2_eq m c).trans rfl

/-- The bias reaches the third region unchanged, as one row. -/
theorem b_row (e : Fin 1024) : arrB2 (V5 m) c (ix2 (0 : Fin 1) e) = argB m c (ix1 e) := by
  refine (congrFun (v8_eq m c) (ix2 (0 : Fin 1) e)).trans ?_
  refine (oneRow_apply _ e).trans ?_
  have h : (W4 m c (Proc.devRef .tc main_arg3) : S1024.Idx → EReal) = argB m c := by
    rw [W4_of_ne m c main_arg3 (by decide)]
    show StableHlo.after hostOps1 (W2 m c) (Proc.devRef .tc main_arg3) = _
    after_results
    rw [W2_of_ne m c main_arg3 (by decide)]
    show StableHlo.after hostOps0 (W0 m c) (Proc.devRef .tc main_arg3) = _
    after_results
  exact congrFun h (ix1 e)

/-- The result rows' array is the specification's result. -/
theorem rows_eq (b : Fin 4) (n : Fin 2048) (e : Fin 1024) :
    arrOut2 (V5 m) c (ix2 (flat b n) e) = Cert.Spec.out (argX m c) (argW m c) (argWo m c) (argB m c) b n e := by
  rw [arr2 (V5 m) c (flat b n) e]
  unfold Cert.Spec.out
  rw [b_row m c e]
  congr 1
  refine Finset.sum_congr rfl fun k _ => ?_
  rw [a_rows m c b n k]
  exact congrArg (fun z => Cert.Spec.merged (argX m c) (argW m c) b n k * z) (congrFun (wo_eq m c) (ix2 e k))

/-! ## The result -/

/-- The kernel program's result array is the specification's. -/
theorem out_eq : W7 m c (Proc.devRef .tc main_v10)
    = Cert.Spec.G (m ((c : Thread nD τ).loc main_arg0)) (m ((c : Thread nD τ).loc main_arg1))
        (m ((c : Thread nD τ).loc main_arg2)) (m ((c : Thread nD τ).loc main_arg3)) := by
  show @Eq (S4x2048x1024.Idx → EReal) (W7 m c (Proc.devRef .tc main_v10)) (Cert.Spec.G (argX m c) (argW m c) (argWo m c) (argB m c))
  funext I
  obtain ⟨b, n, e, rfl⟩ : ∃ (b : Fin 4) (n : Fin 2048) (e : Fin 1024), I = ix3 b n e := ⟨I 0, I 1, I 2, eq_ix3 I⟩
  refine (congrFun (v10_eq m c) (ix3 b n e)).trans ?_
  refine (unflatten1024_apply _ b n e).trans ?_
  refine (congrFun (W6_self m c) (ix2 (flat b n) e)).trans ?_
  rw [Cert.Spec.G_ix3]
  exact rows_eq m c b n e

end Cert.KernelIdeal.Glue

end
-- ==== Proof.RefValue.lean ====
/-
  The reference program read as the common specification.

  The reference computes, one array operation at a time, the same attention layer the specification states over plain
  index functions: the first projection, its split into query, key and value rows of each head, the scaled scores,
  their row maximum, the shifted exponentials and their row sum, the weighted sum of the value rows, the heads laid
  side by side, the second projection and the bias. Each stage is read here at literal coordinates and identified
  with the specification's term for it; the last theorem is the equality of the two arrays.
-/
import proofs.«121129_j18940805776011_2_alg».proof.Proof.Gen.ReferenceIdeal.Read
import proofs.«121129_j18940805776011_2_alg».proof.Proof.Spec
import Idealize.ShloMosaic.PureOps.Reduce
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-! ## Index equations: each operation's source index at literal coordinates -/

/-- Swapping the row and head axes. -/
theorem idx_v4_ix (b : Fin 4) (h : Fin 16) (i : Fin 2048) (d : Fin 64) : idx_main_v4 (ix4 b h i d) = ix4 b i h d := by
  funext a; match a with | ⟨0, _⟩ => rfl | ⟨1, _⟩ => rfl | ⟨2, _⟩ => rfl | ⟨3, _⟩ => rfl
theorem idx_v7_ix (b : Fin 4) (h : Fin 16) (i : Fin 2048) (d : Fin 64) : idx_main_v7 (ix4 b h i d) = ix4 b i h d := by
  funext a; match a with | ⟨0, _⟩ => rfl | ⟨1, _⟩ => rfl | ⟨2, _⟩ => rfl | ⟨3, _⟩ => rfl
theorem idx_v10_ix (b : Fin 4) (h : Fin 16) (i : Fin 2048) (d : Fin 64) : idx_main_v10 (ix4 b h i d) = ix4 b i h d := by
  funext a; match a with | ⟨0, _⟩ => rfl | ⟨1, _⟩ => rfl | ⟨2, _⟩ => rfl | ⟨3, _⟩ => rfl

/-- Putting back the unit section axis. -/
theorem idx_v3_ix (b : Fin 4) (i : Fin 2048) (h : Fin 16) (d : Fin 64) : idx_main_v3 (ix4 b i h d) = ix5 b i (0 : Fin 1) h d := by
  have hb := b.isLt; have hi := i.isLt; have hh := h.isLt; have hd := d.isLt
  funext a; refine Fin.ext ?_
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => rfl
  | ⟨3, _⟩ => show (((b.val * 2048 + i.val) * 16 + h.val) * 64 + d.val) / 64 % 16 = h.val; omega
  | ⟨4, _⟩ => show (((b.val * 2048 + i.val) * 16 + h.val) * 64 + d.val) % 64 = d.val; omega
theorem idx_v6_ix (b : Fin 4) (i : Fin 2048) (h : Fin 16) (d : Fin 64) : idx_main_v6 (ix4 b i h d) = ix5 b i (0 : Fin 1) h d :=
  idx_v3_ix b i h d
theorem idx_v9_ix (b : Fin 4) (i : Fin 2048) (h : Fin 16) (d : Fin 64) : idx_main_v9 (ix4 b i h d) = ix5 b i (0 : Fin 1) h d :=
  idx_v3_ix b i h d

/-- The three slices: section 0, 1, 2 of the projected columns. -/
theorem idx_v2_ix (b : Fin 4) (i : Fin 2048) (h : Fin 16) (d : Fin 64) : idx_main_v2 (ix5 b i (0 : Fin 1) h d) = ix5 b i (0 : Fin 3) h d := by
  funext a; match a with | ⟨0, _⟩ => rfl | ⟨1, _⟩ => rfl | ⟨2, _⟩ => rfl | ⟨3, _⟩ => rfl | ⟨4, _⟩ => rfl
theorem idx_v5_ix (b : Fin 4) (i : Fin 2048) (h : Fin 16) (d : Fin 64) : idx_main_v5 (ix5 b i (0 : Fin 1) h d) = ix5 b i (1 : Fin 3) h d := by
  funext a; match a with | ⟨0, _⟩ => rfl | ⟨1, _⟩ => rfl | ⟨2, _⟩ => rfl | ⟨3, _⟩ => rfl | ⟨4, _⟩ => rfl
theorem idx_v8_ix (b : Fin 4) (i : Fin 2048) (h : Fin 16) (d : Fin 64) : idx_main_v8 (ix5 b i (0 : Fin 1) h d) = ix5 b i (2 : Fin 3) h d := by
  funext a; match a with | ⟨0, _⟩ => rfl | ⟨1, _⟩ => rfl | ⟨2, _⟩ => rfl | ⟨3, _⟩ => rfl | ⟨4, _⟩ => rfl

/-- Section `s`, head `h`, lane `d` of a row is column `s · 1024 + h · 64 + d` of the projection. -/
theorem idx_v1_ix (b : Fin 4) (i : Fin 2048) (s : Fin 3) (h : Fin 16) (d : Fin 64) :
    idx_main_v1 (ix5 b i s h d) = ix3 b i (Spec.col s h d) := by
  have hb := b.isLt; have hi := i.isLt; have hs := s.isLt; have hh := h.isLt; have hd := d.isLt
  funext a; refine Fin.ext ?_
  match a with
  | ⟨0, _⟩ => show ((((b.val * 2048 + i.val) * 3 + s.val) * 16 + h.val) * 64 + d.val) / 6291456 = b.val; omega
  | ⟨1, _⟩ => show ((((b.val * 2048 + i.val) * 3 + s.val) * 16 + h.val) * 64 + d.val) / 3072 % 2048 = i.val; omega
  | ⟨2, _⟩ => show ((((b.val * 2048 + i.val) * 3 + s.val) * 16 + h.val) * 64 + d.val) % 3072 = s.val * 1024 + h.val * 64 + d.val; omega

theorem lidx_v0_ix (b : Fin 4) (i : Fin 2048) (e : Fin 3072) (k : Fin 1024) : lidx_main_v0 (ix3 b i e) k = ix3 b i k := by
  funext a; match a with | ⟨0, _⟩ => rfl | ⟨1, _⟩ => rfl | ⟨2, _⟩ => rfl
theorem ridx_v0_ix (b : Fin 4) (i : Fin 2048) (e : Fin 3072) (k : Fin 1024) : ridx_main_v0 (ix3 b i e) k = ix2 e k := by
  funext a; match a with | ⟨0, _⟩ => rfl | ⟨1, _⟩ => rfl

/-! ## The first projection and its three sections -/

section Stages

variable (x0 : (⟨S4x2048x1024, .f32⟩ : BufTy).Contents (Elt Ideal)) (x1 : (⟨S3072x1024, .f32⟩ : BufTy).Contents (Elt Ideal))

/-- The projection at (b, i, e) is row `i` of batch `b` against row `e` of the weights. -/
theorem proj_apply (b : Fin 4) (i : Fin 2048) (e : Fin 3072) :
    val_main_v0 (F := Ideal) x0 x1 (ix3 b i e) = Spec.proj x0 x1 b i e := by
  rw [val_main_v0_apply]
  unfold Spec.proj
  refine Finset.sum_congr rfl fun k _ => ?_
  rw [lidx_v0_ix, ridx_v0_ix]

/-- The queries: section 0. -/
theorem q_apply (b : Fin 4) (h : Fin 16) (i : Fin 2048) (d : Fin 64) :
    val_main_v4 (F := Ideal) x0 x1 (ix4 b h i d) = Spec.proj x0 x1 b i (Spec.col 0 h d) := by
  rw [val_main_v4_apply, idx_v4_ix, val_main_v3_apply, idx_v3_ix, val_main_v2_apply, idx_v2_ix, val_main_v1_apply, idx_v1_ix,
    proj_apply]
/-- The keys: section 1. -/
theorem k_apply (b : Fin 4) (h : Fin 16) (i : Fin 2048) (d : Fin 64) :
    val_main_v7 (F := Ideal) x0 x1 (ix4 b h i d) = Spec.proj x0 x1 b i (Spec.col 1 h d) := by
  rw [val_main_v7_apply, idx_v7_ix, val_main_v6_apply, idx_v6_ix, val_main_v5_apply, idx_v5_ix, val_main_v1_apply, idx_v1_ix,
    proj_apply]
/-- The values: section 2. -/
theorem v_apply (b : Fin 4) (h : Fin 16) (i : Fin 2048) (d : Fin 64) :
    val_main_v10 (F := Ideal) x0 x1 (ix4 b h i d) = Spec.proj x0 x1 b i (Spec.col 2 h d) := by
  rw [val_main_v10_apply, idx_v10_ix, val_main_v9_apply, idx_v9_ix, val_main_v8_apply, idx_v8_ix, val_main_v1_apply, idx_v1_ix,
    proj_apply]

end Stages

/-! ## One head: scores, row maximum, exponentials, row sum, weighted sum -/

theorem lidx_v11_ix (b : Fin 4) (h : Fin 16) (i j : Fin 2048) (k : Fin 64) : lidx_main_v11 (ix4 b h i j) k = ix4 b h i k := by
  funext a; match a with | ⟨0, _⟩ => rfl | ⟨1, _⟩ => rfl | ⟨2, _⟩ => rfl | ⟨3, _⟩ => rfl
theorem ridx_v11_ix (b : Fin 4) (h : Fin 16) (i j : Fin 2048) (k : Fin 64) : ridx_main_v11 (ix4 b h i j) k = ix4 b h j k := by
  funext a; match a with | ⟨0, _⟩ => rfl | ⟨1, _⟩ => rfl | ⟨2, _⟩ => rfl | ⟨3, _⟩ => rfl
theorem idx_v18_ix (b : Fin 4) (h : Fin 16) (i j : Fin 2048) : idx_main_v18 (ix4 b h i j) = ix4 b h i (0 : Fin 1) := by
  funext a; match a with | ⟨0, _⟩ => rfl | ⟨1, _⟩ => rfl | ⟨2, _⟩ => rfl | ⟨3, _⟩ => rfl
theorem idx_v17_ix (b : Fin 4) (h : Fin 16) (i : Fin 2048) (z : Fin 1) : idx_main_v17 (ix4 b h i z) = ix3 b h i := by
  funext a; match a with | ⟨0, _⟩ => rfl | ⟨1, _⟩ => rfl | ⟨2, _⟩ => rfl
theorem idx_v23_ix (b : Fin 4) (h : Fin 16) (i j : Fin 2048) : idx_main_v23 (ix4 b h i j) = ix4 b h i (0 : Fin 1) := by
  funext a; match a with | ⟨0, _⟩ => rfl | ⟨1, _⟩ => rfl | ⟨2, _⟩ => rfl | ⟨3, _⟩ => rfl
theorem idx_v22_ix (b : Fin 4) (h : Fin 16) (i : Fin 2048) (z : Fin 1) : idx_main_v22 (ix4 b h i z) = ix3 b h i := by
  funext a; match a with | ⟨0, _⟩ => rfl | ⟨1, _⟩ => rfl | ⟨2, _⟩ => rfl
theorem idx_v21_ix (b : Fin 4) (h : Fin 16) (i : Fin 2048) (k : Fin 2048) : idx_main_v21 (ix3 b h i) k = ix4 b h i k := by
  funext a; match a with | ⟨0, _⟩ => rfl | ⟨1, _⟩ => rfl | ⟨2, _⟩ => rfl | ⟨3, _⟩ => rfl
theorem lidx_v25_ix (b : Fin 4) (h : Fin 16) (i : Fin 2048) (d : Fin 64) (k : Fin 2048) : lidx_main_v25 (ix4 b h i d) k = ix4 b h i k := by
  funext a; match a with | ⟨0, _⟩ => rfl | ⟨1, _⟩ => rfl | ⟨2, _⟩ => rfl | ⟨3, _⟩ => rfl
theorem ridx_v25_ix (b : Fin 4) (h : Fin 16) (i : Fin 2048) (d : Fin 64) (k : Fin 2048) : ridx_main_v25 (ix4 b h i d) k = ix4 b h k d := by
  funext a; match a with | ⟨0, _⟩ => rfl | ⟨1, _⟩ => rfl | ⟨2, _⟩ => rfl | ⟨3, _⟩ => rfl

/-- The row (b, h, i) with key `k` put back on the reduced axis is (b, h, i, k). -/
theorem lift_ix (hr : S4x16x2048x2048.Reduces [3] S4x16x2048) (b : Fin 4) (h : Fin 16) (i : Fin 2048)
    (k : Fin (S4x16x2048x2048.size 3)) : hr.lift (ix3 b h i) k = ix4 b h i (⟨k.val, k.isLt⟩ : Fin 2048) := by
  funext c; apply Fin.ext
  fin_cases c <;> rfl

/-- From −∞ the maximum-reduce over the keys, at row (b, h, i), is the fold of `max` over that row's entries. -/
theorem reduce_max_apply (y : S4x16x2048x2048.Idx → EReal) (b : Fin 4) (h : Fin 16) (i : Fin 2048) :
    Host.reduce (FloatOps.maximumf (F := Ideal) (φ := .f32)) y (val_main_cst_0 (F := Ideal))
        reducesTo_S4x16x2048x2048_S4x16x2048_d3 h_S_ (ix3 b h i)
      = (Finset.univ : Finset (Fin 2048)).fold max Spec.negInf (fun j => y (ix4 b h i j)) := by
  have hr : S4x16x2048x2048.Reduces [3] S4x16x2048 :=
    ⟨reducesTo_S4x16x2048x2048_S4x16x2048_d3.1, by decide, reducesTo_S4x16x2048x2048_S4x16x2048_d3.2⟩
  refine (Host.reduce_eq_fold_single (FloatOps.maximumf (F := Ideal) (φ := .f32)) y (val_main_cst_0 (F := Ideal))
    reducesTo_S4x16x2048x2048_S4x16x2048_d3 hr h_S_ (ix3 b h i)).trans ?_
  have hf : (y ∘ hr.lift (ix3 b h i)) = fun k : Fin 2048 => y (ix4 b h i k) := funext fun k => congrArg y (lift_ix hr b h i k)
  exact congrArg (fun f => Finset.fold max (Ideal.ofBits .f32 0xFF800000#32) f (Finset.univ : Finset (Fin 2048))) hf

/-- −∞ is neutral for `max`. -/
theorem max_negInf (y : EReal) : max Spec.negInf y = y := by
  simp [Ideal.ofBits, Ideal.ieee]

section Head

variable (x0 : (⟨S4x2048x1024, .f32⟩ : BufTy).Contents (Elt Ideal)) (x1 : (⟨S3072x1024, .f32⟩ : BufTy).Contents (Elt Ideal))

/-- The query, key and value rows of head `h` of batch `b`. -/
abbrev Q (b : Fin 4) (h : Fin 16) : Fin 2048 → Fin 64 → EReal := fun i d => Spec.proj x0 x1 b i (Spec.col 0 h d)
abbrev K (b : Fin 4) (h : Fin 16) : Fin 2048 → Fin 64 → EReal := fun j d => Spec.proj x0 x1 b j (Spec.col 1 h d)
abbrev V (b : Fin 4) (h : Fin 16) : Fin 2048 → Fin 64 → EReal := fun j d => Spec.proj x0 x1 b j (Spec.col 2 h d)

/-- The scaled scores. -/
theorem score_apply (b : Fin 4) (h : Fin 16) (i j : Fin 2048) :
    val_main_v13 (F := Ideal) x0 x1 (ix4 b h i j) = Spec.score (Q x0 x1 b h) (K x0 x1 b h) i j := by
  rw [val_main_v13_apply, val_main_v12_apply, val_main_cst_apply, val_main_v11_apply]
  simp only [Ideal.mulf_def, Ideal.ofBits_def]
  unfold Spec.score
  congr 1
  refine Finset.sum_congr rfl fun k _ => ?_
  rw [lidx_v11_ix, ridx_v11_ix, q_apply, k_apply]

/-- The row maximum. -/
theorem max_apply (b : Fin 4) (h : Fin 16) (i : Fin 2048) :
    val_main_v16 (F := Ideal) x0 x1 (ix3 b h i) = Spec.rowMax (Q x0 x1 b h) (K x0 x1 b h) i := by
  rw [val_main_v16_apply, val_main_v15_apply, val_main_cst_1_apply]
  simp only [Ideal.maximumf_def, Ideal.ofBits_def]
  unfold val_main_v14
  generalize hy : val_main_v13 (F := Ideal) x0 x1 = y
  rw [reduce_max_apply y b h i, max_negInf]
  unfold Spec.rowMax
  subst hy
  exact congrArg (fun f => Finset.fold max Spec.negInf f (Finset.univ : Finset (Fin 2048))) (funext fun j => score_apply x0 x1 b h i j)

/-- The shifted scores, exponentiated. -/
theorem expo_apply (b : Fin 4) (h : Fin 16) (i j : Fin 2048) :
    val_main_v20 (F := Ideal) x0 x1 (ix4 b h i j) = Spec.expo (Q x0 x1 b h) (K x0 x1 b h) i j := by
  rw [val_main_v20_apply, val_main_v19_apply, val_main_v18_apply, idx_v18_ix, val_main_v17_apply, idx_v17_ix, max_apply, score_apply]
  simp only [Ideal.hostUnary_exp_def, Ideal.subf_def]
  rfl

/-- The row sum of the exponentials. -/
theorem sum_apply (b : Fin 4) (h : Fin 16) (i : Fin 2048) :
    val_main_v21 (F := Ideal) x0 x1 (ix3 b h i) = Spec.rowSum (Q x0 x1 b h) (K x0 x1 b h) i := by
  rw [val_main_v21_apply, val_main_cst_2_apply]
  simp only [Ideal.ofBits_def, Ideal.ofBits_zero_f32, zero_add]
  unfold Spec.rowSum
  refine Finset.sum_congr rfl fun k _ => ?_
  rw [idx_v21_ix, expo_apply]

/-- The head's output: the weights times the value rows. -/
theorem head_apply (b : Fin 4) (h : Fin 16) (i : Fin 2048) (d : Fin 64) :
    val_main_v25 (F := Ideal) x0 x1 (ix4 b h i d) = Spec.attn x0 x1 b h i d := by
  rw [val_main_v25_apply]
  show _ = Spec.head (Q x0 x1 b h) (K x0 x1 b h) (V x0 x1 b h) i d
  unfold Spec.head
  refine Finset.sum_congr rfl fun k _ => ?_
  rw [lidx_v25_ix, ridx_v25_ix, val_main_v24_apply, val_main_v23_apply, idx_v23_ix, val_main_v22_apply, idx_v22_ix, sum_apply,
    expo_apply, v_apply]
  simp only [Ideal.hostDivf_def]

end Head

/-! ## The heads side by side, the second projection and the bias -/

theorem idx_v26_ix (b : Fin 4) (r : Fin 2048) (h : Fin 16) (d : Fin 64) : idx_main_v26 (ix4 b r h d) = ix4 b h r d := by
  funext a; match a with | ⟨0, _⟩ => rfl | ⟨1, _⟩ => rfl | ⟨2, _⟩ => rfl | ⟨3, _⟩ => rfl
/-- Column `c` of a merged row is head `c / 64`, lane `c % 64`. -/
theorem idx_v27_ix (b : Fin 4) (r : Fin 2048) (c : Fin 1024) :
    idx_main_v27 (ix3 b r c) = ix4 b r (⟨c.val / 64, by omega⟩ : Fin 16) (⟨c.val % 64, by omega⟩ : Fin 64) := by
  have hb := b.isLt; have hr := r.isLt; have hc := c.isLt
  funext a; refine Fin.ext ?_
  match a with
  | ⟨0, _⟩ => show ((b.val * 2048 + r.val) * 1024 + c.val) / 2097152 = b.val; omega
  | ⟨1, _⟩ => show ((b.val * 2048 + r.val) * 1024 + c.val) / 1024 % 2048 = r.val; omega
  | ⟨2, _⟩ => show ((b.val * 2048 + r.val) * 1024 + c.val) / 64 % 16 = c.val / 64; omega
  | ⟨3, _⟩ => show ((b.val * 2048 + r.val) * 1024 + c.val) % 64 = c.val % 64; omega
theorem lidx_v28_ix (b : Fin 4) (r : Fin 2048) (e : Fin 1024) (k : Fin 1024) : lidx_main_v28 (ix3 b r e) k = ix3 b r k := by
  funext a; match a with | ⟨0, _⟩ => rfl | ⟨1, _⟩ => rfl | ⟨2, _⟩ => rfl
theorem ridx_v28_ix (b : Fin 4) (r : Fin 2048) (e : Fin 1024) (k : Fin 1024) : ridx_main_v28 (ix3 b r e) k = ix2 e k := by
  funext a; match a with | ⟨0, _⟩ => rfl | ⟨1, _⟩ => rfl
theorem idx_v30_ix (b : Fin 4) (r : Fin 2048) (e : Fin 1024) : idx_main_v30 (ix3 b r e) = ix3 (0 : Fin 1) (0 : Fin 1) e := by
  funext a; match a with | ⟨0, _⟩ => rfl | ⟨1, _⟩ => rfl | ⟨2, _⟩ => rfl
theorem idx_v29_ix (u v : Fin 1) (e : Fin 1024) : idx_main_v29 (ix3 u v e) = ix1 e := by
  funext a; match a with | ⟨0, _⟩ => rfl

section Layer

variable (x0 : (⟨S4x2048x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))

/-- The merged rows. -/
theorem merged_apply (b : Fin 4) (r : Fin 2048) (c : Fin 1024) :
    val_main_v27 (F := Ideal) x0 x1 (ix3 b r c) = Spec.merged x0 x1 b r c := by
  rw [val_main_v27_apply, idx_v27_ix, val_main_v26_apply, idx_v26_ix, head_apply]
  rfl

/-- The layer's result at (b, r, e). -/
theorem out_apply (b : Fin 4) (r : Fin 2048) (e : Fin 1024) :
    val_main_v31 (F := Ideal) x0 x1 x2 x3 (ix3 b r e) = Spec.out x0 x1 x2 x3 b r e := by
  rw [val_main_v31_apply, val_main_v28_apply, val_main_v30_apply, idx_v30_ix, val_main_v29_apply, idx_v29_ix]
  simp only [Ideal.addf_def]
  unfold Spec.out
  congr 1
  refine Finset.sum_congr rfl fun k _ => ?_
  rw [lidx_v28_ix, ridx_v28_ix, merged_apply]

/-- The reference's result array is the specification's. -/
theorem ref_eq : val_main_v31 (F := Ideal) x0 x1 x2 x3 = Spec.G x0 x1 x2 x3 := by
  funext I
  obtain ⟨b, r, e, rfl⟩ : ∃ (b : Fin 4) (r : Fin 2048) (e : Fin 1024), I = ix3 b r e := ⟨I 0, I 1, I 2, eq_ix3 I⟩
  rw [Spec.G_ix3, out_apply]

end Layer

end Cert.RefValue

end
-- ==== Proof.lean ====
/-
  The certificate of a multi-head attention layer against its plain reference, both read over the extended reals.

  The kernel program: the input rows are projected onto 3 · 16 · 64 columns (queries, keys and values of 16 heads) by a
  first kernel, 512 rows at a time; a second kernel attends, two heads and 512 query rows per grid point, reading its
  query, key and value blocks out of that one array and writing the heads' outputs side by side; a third kernel
  projects the merged rows again and adds the bias. The reference does the same with whole-array operations: one
  contraction per projection, the heads split off by reshapes and transposes, a softmax over the key axis.

  Over the extended reals the casts to the narrow float format are the identity and every sum is exact, so both
  programs compute one function of the four arguments (`Cert.Spec.G`): the projection is the same sum over the 1024
  input columns; a head's scores are the same sums over its 64 lanes times the scale 2⁻⁵; the row maximum is the same
  fold of `max` from −∞ (the reference's extra `max` with −∞ changes nothing); the exponentials, their sum and the
  quotients are the same terms; the weighted sum over the 2048 keys and the final sum over the 1024 merged columns
  plus the bias are the same sums. No law beyond 0 + x = x and max(−∞, x) = x is used, so finiteness of the inputs is
  never needed. What differs is only where an entry lives: row b·2048 + n of a flattened array is row n of batch b,
  column 64h + d of a merged row is lane d of head h, and a grid point's block is a rectangle of the array.

  The frames: each program runs to its end, faults nowhere and leaves its arguments as launched. For the two kernel
  programs this is the run of the whole main function as a sequence of host stretches and kernel regions over one
  named valuation of its buffers; for the reference it is the run of its list of host operations.
  The idealization rewrote nothing, so the preservation claim is trivial.
-/
import proofs.«121129_j18940805776011_2_alg».proof.Defs
import proofs.«121129_j18940805776011_2_alg».proof.Proof.Gen.Kernel
import proofs.«121129_j18940805776011_2_alg».proof.Proof.Gen.KernelIdeal
import proofs.«121129_j18940805776011_2_alg».proof.Proof.Gen.ReferenceIdeal
import proofs.«121129_j18940805776011_2_alg».proof.Proof.Gen.Pre_finite_inputs
import proofs.«121129_j18940805776011_2_alg».proof.Proof.Gen.ReferenceIdeal.Run
import proofs.«121129_j18940805776011_2_alg».proof.Proof.Gen.ReferenceIdeal.Read
import proofs.«121129_j18940805776011_2_alg».proof.Proof.K.Args
import proofs.«121129_j18940805776011_2_alg».proof.Proof.KI.Args
import proofs.«121129_j18940805776011_2_alg».proof.Proof.KI.Value
import proofs.«121129_j18940805776011_2_alg».proof.Proof.RefValue

noncomputable section

namespace Cert.Proof

open Idealize.ShloMosaic Idealize.ShloMosaic.TcCoe Idealize.SL.Sem

/-- The kernel program as printed runs to its end and keeps its arguments. -/
theorem frame_k : Cert.frame_Kernel := fun m ρ _ => Cert.Kernel.Frm.frame (F := Bits) m ρ

/-- So does its reading over the extended reals. -/
theorem frame_ki : Cert.frame_KernelIdeal := fun m ρ _ => Cert.KernelIdeal.Frm.frame (F := Ideal) m ρ

/-- The reference is a list of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel program's result array is `Cert.Spec.G` of its arguments: the run of the main
    function read at its last buffer, the three regions' arrays composed through the reshapes between them. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v10)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun r h c =>
    ⟨(h c _ (Cert.KernelIdeal.Frm.mem_uc Cert.KernelIdeal.main_v10 (by decide))).trans (Cert.KernelIdeal.Glue.out_eq m c),
     (h c _ (Cert.KernelIdeal.Frm.mem_uc Cert.KernelIdeal.main_arg0 (by decide))).trans (Cert.KernelIdeal.Frm.W7_main_arg0 m c),
     (h c _ (Cert.KernelIdeal.Frm.mem_uc Cert.KernelIdeal.main_arg1 (by decide))).trans (Cert.KernelIdeal.Frm.W7_main_arg1 m c),
     (h c _ (Cert.KernelIdeal.Frm.mem_uc Cert.KernelIdeal.main_arg2 (by decide))).trans (Cert.KernelIdeal.Frm.W7_main_arg2 m c),
     (h c _ (Cert.KernelIdeal.Frm.mem_uc Cert.KernelIdeal.main_arg3 (by decide))).trans (Cert.KernelIdeal.Frm.W7_main_arg3 m c)⟩)
    (Cert.KernelIdeal.Frm.run_all (F := Ideal) m ρ)

/-- From memories that agree on the arguments both programs end with the same result array, `Cert.Spec.G` of the
    arguments: the kernel program by its run, the reference by its run read one operation at a time. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
